-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 82
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S1600000x64, .f32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S1x40, .f32⟩
  | .hbm, ⟨81, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x40, .f32⟩
  | .local _ .vmem, ⟨33, _⟩ => ⟨S1x40, .f32⟩
  | .local _ .vmem, ⟨34, _⟩ => ⟨S5000x40, .f32⟩
  | .local _ .vmem, ⟨35, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S100000x40.size a
  hwx4_3 : ∀ i : grid4.Coords, EltTy.bits .f32 = 32 ∨ (Rect.block (s := S100000x40) S5000x40.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S5000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v58) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v58) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1x40 : Shape := ⟨2, ![1, 40]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x1, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S100000x40, .f32⟩
  | _ => ⟨S100000x128, .f32⟩

abbrev hbmTy0_1 (i : Nat) : BufTy := match i % 128 with
  | 0 => ⟨S1x40, .f32⟩
  | 1 => ⟨S100000x40, .f32⟩
  | 2 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KRun.lean ====
/-
  The kernel program's run, with its result named.

  The five kernel regions and the host operations between them run as nine segments; the buffer contents at the
  segment boundaries are the fold W0, W1, …, W9 (a host stretch applies its operations; a region leaves each of its
  arrays at what the write-backs of its grid points leave).  Every weakly fair execution terminates with every
  unscoped buffer at W9: in particular the result buffer, and the eight argument arrays, which no segment writes.
-/
import proofs.«133895_j43662637531875_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates; the result buffer ends at the last boundary's
    contents W9, and the arguments end as launched. -/
theorem run_named : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.KRun

end
-- ==== Proof.LibRowRel.lean ====
/-
  Arrays related row by row.

  Two matrices x : [M, N] and y : [M', N] are related along a map ρ of rows when row p of x is row ρ p of y,
  entry by entry, as extended reals.  Every operation that treats the rows of a matrix separately preserves the
  relation: a slice of columns, a concatenation of two or of six pieces along the columns, a pointwise sum, product, difference, maximum or
  minimum, a pointwise function, a change of float format (the identity on extended reals), the addition of one bias
  row to every row, and a splat constant.  The logistic function of the vector unit is related to the quotient
  1 / (1 + exp (−y)) the host computes, because at the ideal values it is that quotient by definition.  Any extents.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.LibRowRel

open Idealize.ShloMosaic Idealize.ShloMosaic.ValueIdx

variable {M M' : Nat}

/-- Row p of x is row ρ p of y. The left matrix may be in any float format; the right one is in f32 (a host array). -/
def Rel (ρ : Fin M → Fin M') {N : Nat} {φ : FTy} (x : FVec Ideal ⟨2, ![M, N]⟩ φ) (y : FVec Ideal ⟨2, ![M', N]⟩ .f32) : Prop :=
  ∀ (p : Fin M) (j : Fin N), (x (ix2 p j) : EReal) = y (ix2 (ρ p) j)

variable {ρ : Fin M → Fin M'}

/-- Columns o … o + n − 1 of related matrices are related. -/
theorem Rel.slice {N n : Nat} {φ : FTy} {x : FVec Ideal ⟨2, ![M, N]⟩ φ} {y : FVec Ideal ⟨2, ![M', N]⟩ .f32} (h : Rel ρ x y) (o : Nat)
    (hx : (⟨2, ![M, N]⟩ : Shape).Slices ![0, o] ⟨2, ![M, n]⟩) (hy : (⟨2, ![M', N]⟩ : Shape).Slices ![0, o] ⟨2, ![M', n]⟩) :
    Rel ρ (φ := φ) (extractStridedSlice ⟨2, ![M, n]⟩ ![0, o] x hx) (extractStridedSlice ⟨2, ![M', n]⟩ ![0, o] y hy) := fun p j => by
  rw [slice2_axis1_eq o x hx p j, slice2_axis1_eq o y hy (ρ p) j]
  exact h p _

/-- Two related pairs laid side by side are related. -/
theorem Rel.concat2 {a b c : Nat} {φ : FTy} {x₁ : FVec Ideal ⟨2, ![M, a]⟩ φ} {x₂ : FVec Ideal ⟨2, ![M, b]⟩ φ}
    {y₁ : FVec Ideal ⟨2, ![M', a]⟩ .f32} {y₂ : FVec Ideal ⟨2, ![M', b]⟩ .f32} (h₁ : Rel ρ x₁ y₁) (h₂ : Rel ρ x₂ y₂)
    (hx : Shape.Concatenates [⟨2, ![M, a]⟩, ⟨2, ![M, b]⟩] ⟨2, ![M, c]⟩ 1)
    (hy : Shape.Concatenates [⟨2, ![M', a]⟩, ⟨2, ![M', b]⟩] ⟨2, ![M', c]⟩ 1) :
    Rel ρ (φ := φ) (concatenate ⟨2, ![M, c]⟩ 1 [⟨⟨2, ![M, a]⟩, x₁⟩, ⟨⟨2, ![M, b]⟩, x₂⟩] hx)
      (concatenate ⟨2, ![M', c]⟩ 1 [⟨⟨2, ![M', a]⟩, y₁⟩, ⟨⟨2, ![M', b]⟩, y₂⟩] hy) := fun p j => by
  by_cases hj : j.val < a
  · rw [concatenate_pair_apply_left 1 x₁ x₂ hx (ix2 p j) rfl (ix2 p ⟨j.val, hj⟩)
          (fun d => by match d with | ⟨0, _⟩ => rfl | ⟨1, _⟩ => rfl),
        concatenate_pair_apply_left 1 y₁ y₂ hy (ix2 (ρ p) j) rfl (ix2 (ρ p) ⟨j.val, hj⟩)
          (fun d => by match d with | ⟨0, _⟩ => rfl | ⟨1, _⟩ => rfl)]
    exact h₁ p _
  · have hc : a + (b + 0) = c := hx.2.2
    have hj' : j.val - a < b := by have := j.isLt; omega
    rw [concatenate_pair_apply_right 1 x₁ x₂ hx (ix2 p j) rfl rfl (ix2 p ⟨j.val - a, hj'⟩)
          (fun d hd => by match d with | ⟨0, _⟩ => rfl | ⟨1, _⟩ => exact absurd rfl hd)
          (by show j.val - a + a = j.val; omega),
        concatenate_pair_apply_right 1 y₁ y₂ hy (ix2 (ρ p) j) rfl rfl (ix2 (ρ p) ⟨j.val - a, hj'⟩)
          (fun d hd => by match d with | ⟨0, _⟩ => rfl | ⟨1, _⟩ => exact absurd rfl hd)
          (by show j.val - a + a = j.val; omega)]
    exact h₂ p _

section Pointwise
variable {N : Nat} {φ : FTy} {x x' : FVec Ideal ⟨2, ![M, N]⟩ φ} {y y' : FVec Ideal ⟨2, ![M', N]⟩ .f32}

theorem Rel.addf (h : Rel ρ x y) (h' : Rel ρ x' y') : Rel ρ (addf x x') (addf y y') := fun p j => by
  show (x (ix2 p j) : EReal) + x' (ix2 p j) = y (ix2 (ρ p) j) + y' (ix2 (ρ p) j)
  rw [h p j, h' p j]

theorem Rel.mulf (h : Rel ρ x y) (h' : Rel ρ x' y') : Rel ρ (mulf x x') (mulf y y') := fun p j => by
  show (x (ix2 p j) : EReal) * x' (ix2 p j) = y (ix2 (ρ p) j) * y' (ix2 (ρ p) j)
  rw [h p j, h' p j]

theorem Rel.subf (h : Rel ρ x y) (h' : Rel ρ x' y') : Rel ρ (subf x x') (subf y y') := fun p j => by
  show (x (ix2 p j) : EReal) - x' (ix2 p j) = y (ix2 (ρ p) j) - y' (ix2 (ρ p) j)
  rw [h p j, h' p j]

theorem Rel.maximumf (h : Rel ρ x y) (h' : Rel ρ x' y') : Rel ρ (maximumf x x') (maximumf y y') := fun p j => by
  show max (x (ix2 p j) : EReal) (x' (ix2 p j)) = max (y (ix2 (ρ p) j)) (y' (ix2 (ρ p) j))
  rw [h p j, h' p j]

theorem Rel.minimumf (h : Rel ρ x y) (h' : Rel ρ x' y') : Rel ρ (minimumf x x') (minimumf y y') := fun p j => by
  show min (x (ix2 p j) : EReal) (x' (ix2 p j)) = min (y (ix2 (ρ p) j)) (y' (ix2 (ρ p) j))
  rw [h p j, h' p j]

/-- Sums of three related terms are related however they are grouped: addition of extended reals is associative. -/
theorem Rel.addf_assoc {x'' : FVec Ideal ⟨2, ![M, N]⟩ φ} {y'' : FVec Ideal ⟨2, ![M', N]⟩ .f32}
    (h : Rel ρ x y) (h' : Rel ρ x' y') (h'' : Rel ρ x'' y'') :
    Rel ρ (Idealize.ShloMosaic.addf x (Idealize.ShloMosaic.addf x' x'')) (Idealize.ShloMosaic.addf (Idealize.ShloMosaic.addf y y') y'') := fun p j => by
  show (x (ix2 p j) : EReal) + (x' (ix2 p j) + x'' (ix2 p j)) = y (ix2 (ρ p) j) + y' (ix2 (ρ p) j) + y'' (ix2 (ρ p) j)
  rw [h p j, h' p j, h'' p j, add_assoc]

/-- The vector unit's hyperbolic tangent and the host's are one function of an extended real. -/
theorem Rel.tanh (h : Rel ρ x y) : Rel ρ (tanh x) (Host.tanh y) := fun p j => by
  show Ideal.tanh (x (ix2 p j)) = Ideal.tanh (y (ix2 (ρ p) j))
  rw [h p j]

/-- The vector unit's exponential and the host's are one function of an extended real. -/
theorem Rel.exp (h : Rel ρ x y) : Rel ρ (exp x) (Host.exp y) := fun p j => by
  show Ideal.exp (x (ix2 p j)) = Ideal.exp (y (ix2 (ρ p) j))
  rw [h p j]

/-- A change of float format on the left is the identity on extended reals. -/
theorem Rel.truncf_left {φ' : FTy} (hb : φ'.bits < φ.bits) (h : Rel ρ x y) : Rel ρ (truncf φ' x hb) y := fun p j => h p j

end Pointwise

/-- A broadcast scalar constant read anywhere is the value of its word. -/
theorem splat_apply {t : Shape} (φ : FTy) (w : BitVec φ.bits) (hb : (⟨0, ![]⟩ : Shape).BroadcastsInDim t ![]) (i : t.Idx) :
    broadcastInDim t ![] hb (constant (F := Ideal) ⟨0, ![]⟩ φ w) i = Ideal.ofBits φ w :=
  broadcastInDim_apply ![] hb _ i ix0 (fun a => a.elim0)

/-- The vector unit's splat of a scalar literal and the host's broadcast of the same word are related. -/
theorem Rel.splat {N : Nat} (w : BitVec 32) (hb : (⟨0, ![]⟩ : Shape).BroadcastsInDim ⟨2, ![M', N]⟩ ![]) :
    Rel ρ (φ := .f32) (broadcast ⟨2, ![M, N]⟩ (Scalar.ofBits (F := Ideal) .f32 w))
      (broadcastInDim ⟨2, ![M', N]⟩ ![] hb (constant (F := Ideal) ⟨0, ![]⟩ .f32 w)) := fun p j => by
  rw [splat_apply]; rfl

/-- The vector unit's logistic function is, at the ideal values, the quotient 1 / (1 + exp (−y)) the host spells out
    with the word of 1.0. -/
theorem Rel.logistic {N : Nat} {x : FVec Ideal ⟨2, ![M, N]⟩ .f32} {y : FVec Ideal ⟨2, ![M', N]⟩ .f32} (h : Rel ρ x y)
    (hb hb' : (⟨0, ![]⟩ : Shape).BroadcastsInDim ⟨2, ![M', N]⟩ ![]) :
    Rel ρ (logistic x)
      (Host.divf (broadcastInDim ⟨2, ![M', N]⟩ ![] hb (constant (F := Ideal) ⟨0, ![]⟩ .f32 0x3F800000#32))
        (Idealize.ShloMosaic.addf (broadcastInDim ⟨2, ![M', N]⟩ ![] hb' (constant (F := Ideal) ⟨0, ![]⟩ .f32 0x3F800000#32))
          (Host.exp (Host.negf y)))) := fun p j => by
  show Ideal.logistic (x (ix2 p j))
    = Ideal.div (broadcastInDim ⟨2, ![M', N]⟩ ![] hb (constant (F := Ideal) ⟨0, ![]⟩ .f32 0x3F800000#32) (ix2 (ρ p) j))
        (broadcastInDim ⟨2, ![M', N]⟩ ![] hb' (constant (F := Ideal) ⟨0, ![]⟩ .f32 0x3F800000#32) (ix2 (ρ p) j)
          + Ideal.exp (-(y (ix2 (ρ p) j))))
  rw [splat_apply, Ideal.ofBits_one_f32, h p j]
  rfl

/-- One bias row added to every row: the vector unit broadcasts the row, the host broadcasts it in the two dimensions. -/
theorem Rel.biasRow {N : Nat} {φ : FTy} {b : FVec Ideal ⟨2, ![1, N]⟩ φ} {b' : FVec Ideal ⟨2, ![1, N]⟩ .f32}
    (h : ∀ i, (b i : EReal) = b' i)
    (hb : (⟨2, ![1, N]⟩ : Shape).Broadcasts ⟨2, ![M, N]⟩) (hb' : (⟨2, ![1, N]⟩ : Shape).BroadcastsInDim ⟨2, ![M', N]⟩ ![0, 1]) :
    Rel ρ (φ := φ) (broadcastTo ⟨2, ![M, N]⟩ b hb) (broadcastInDim ⟨2, ![M', N]⟩ ![0, 1] hb' b') := fun p j => by
  rw [broadcastTo_1b_ab_apply b hb p j,
    broadcastInDim_apply ![0, 1] hb' b' (ix2 (ρ p) j) (ix2 (0 : Fin 1) j) (fun a => by
      match a with
      | ⟨0, _⟩ => show (0 : Nat) = if (1 : Nat) = 1 then 0 else _; rw [if_pos rfl]
      | ⟨1, _⟩ =>
        show j.val = if N = 1 then 0 else j.val
        split
        · have := j.isLt; omega
        · rfl)]
  exact h _

/-- Six related pieces laid side by side are related: an entry of the joined matrix comes from the piece whose span of
    columns holds its column, at the same row and at the column less the extents of the pieces before it. -/
theorem Rel.concat6 {a1 a2 a3 a4 a5 a6 c : Nat} {φ : FTy}
    {x1 : FVec Ideal ⟨2, ![M, a1]⟩ φ} {x2 : FVec Ideal ⟨2, ![M, a2]⟩ φ} {x3 : FVec Ideal ⟨2, ![M, a3]⟩ φ}
    {x4 : FVec Ideal ⟨2, ![M, a4]⟩ φ} {x5 : FVec Ideal ⟨2, ![M, a5]⟩ φ} {x6 : FVec Ideal ⟨2, ![M, a6]⟩ φ}
    {y1 : FVec Ideal ⟨2, ![M', a1]⟩ .f32} {y2 : FVec Ideal ⟨2, ![M', a2]⟩ .f32} {y3 : FVec Ideal ⟨2, ![M', a3]⟩ .f32}
    {y4 : FVec Ideal ⟨2, ![M', a4]⟩ .f32} {y5 : FVec Ideal ⟨2, ![M', a5]⟩ .f32} {y6 : FVec Ideal ⟨2, ![M', a6]⟩ .f32}
    (h1 : Rel ρ x1 y1) (h2 : Rel ρ x2 y2) (h3 : Rel ρ x3 y3) (h4 : Rel ρ x4 y4) (h5 : Rel ρ x5 y5) (h6 : Rel ρ x6 y6)
    (hx : Shape.Concatenates [⟨2, ![M, a1]⟩, ⟨2, ![M, a2]⟩, ⟨2, ![M, a3]⟩, ⟨2, ![M, a4]⟩, ⟨2, ![M, a5]⟩, ⟨2, ![M, a6]⟩] ⟨2, ![M, c]⟩ 1)
    (hy : Shape.Concatenates [⟨2, ![M', a1]⟩, ⟨2, ![M', a2]⟩, ⟨2, ![M', a3]⟩, ⟨2, ![M', a4]⟩, ⟨2, ![M', a5]⟩, ⟨2, ![M', a6]⟩] ⟨2, ![M', c]⟩ 1) :
    Rel ρ (φ := φ)
      (concatenate ⟨2, ![M, c]⟩ 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx)
      (concatenate ⟨2, ![M', c]⟩ 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy) := fun p j => by
  have hc : a1 + (a2 + (a3 + (a4 + (a5 + (a6 + 0))))) = c := hx.2.2
  have hjc := j.isLt
  -- the piece that holds column j, from the left
  by_cases c1 : j.val < a1
  · rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 0 (by show (0 : Nat) < 6; decide) _ x1 rfl rfl 0 rfl (ix2 p ⟨j.val, c1⟩)
          (fun d hd => by match d with | ⟨0, _⟩ => rfl | ⟨1, _⟩ => exact absurd rfl hd) (by show 0 + j.val = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 0 (by show (0 : Nat) < 6; decide) _ y1 rfl rfl 0 rfl (ix2 (ρ p) ⟨j.val, c1⟩)
          (fun d hd => by match d with | ⟨0, _⟩ => rfl | ⟨1, _⟩ => exact absurd rfl hd) (by show 0 + j.val = j.val; omega)]
    exact h1 p _
  by_cases c2 : j.val < a1 + a2
  · have hb : j.val - a1 < a2 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 1 (by show (1 : Nat) < 6; decide) _ x2 rfl rfl (a1 + 0) rfl (ix2 p ⟨j.val - a1, hb⟩)
          (fun d hd => by match d with | ⟨0, _⟩ => rfl | ⟨1, _⟩ => exact absurd rfl hd) (by show a1 + 0 + (j.val - a1) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 1 (by show (1 : Nat) < 6; decide) _ y2 rfl rfl (a1 + 0) rfl (ix2 (ρ p) ⟨j.val - a1, hb⟩)
          (fun d hd => by match d with | ⟨0, _⟩ => rfl | ⟨1, _⟩ => exact absurd rfl hd) (by show a1 + 0 + (j.val - a1) = j.val; omega)]
    exact h2 p _
  by_cases c3 : j.val < a1 + a2 + a3
  · have hb : j.val - (a1 + a2) < a3 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 2 (by show (2 : Nat) < 6; decide) _ x3 rfl rfl (a1 + (a2 + 0)) rfl (ix2 p ⟨j.val - (a1 + a2), hb⟩)
          (fun d hd => by match d with | ⟨0, _⟩ => rfl | ⟨1, _⟩ => exact absurd rfl hd) (by show a1 + (a2 + 0) + (j.val - (a1 + a2)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 2 (by show (2 : Nat) < 6; decide) _ y3 rfl rfl (a1 + (a2 + 0)) rfl (ix2 (ρ p) ⟨j.val - (a1 + a2), hb⟩)
          (fun d hd => by match d with | ⟨0, _⟩ => rfl | ⟨1, _⟩ => exact absurd rfl hd) (by show a1 + (a2 + 0) + (j.val - (a1 + a2)) = j.val; omega)]
    exact h3 p _
  by_cases c4 : j.val < a1 + a2 + a3 + a4
  · have hb : j.val - (a1 + a2 + a3) < a4 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 3 (by show (3 : Nat) < 6; decide) _ x4 rfl rfl (a1 + (a2 + (a3 + 0))) rfl (ix2 p ⟨j.val - (a1 + a2 + a3), hb⟩)
          (fun d hd => by match d with | ⟨0, _⟩ => rfl | ⟨1, _⟩ => exact absurd rfl hd) (by show a1 + (a2 + (a3 + 0)) + (j.val - (a1 + a2 + a3)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 3 (by show (3 : Nat) < 6; decide) _ y4 rfl rfl (a1 + (a2 + (a3 + 0))) rfl (ix2 (ρ p) ⟨j.val - (a1 + a2 + a3), hb⟩)
          (fun d hd => by match d with | ⟨0, _⟩ => rfl | ⟨1, _⟩ => exact absurd rfl hd) (by show a1 + (a2 + (a3 + 0)) + (j.val - (a1 + a2 + a3)) = j.val; omega)]
    exact h4 p _
  by_cases c5 : j.val < a1 + a2 + a3 + a4 + a5
  · have hb : j.val - (a1 + a2 + a3 + a4) < a5 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 4 (by show (4 : Nat) < 6; decide) _ x5 rfl rfl (a1 + (a2 + (a3 + (a4 + 0)))) rfl (ix2 p ⟨j.val - (a1 + a2 + a3 + a4), hb⟩)
          (fun d hd => by match d with | ⟨0, _⟩ => rfl | ⟨1, _⟩ => exact absurd rfl hd) (by show a1 + (a2 + (a3 + (a4 + 0))) + (j.val - (a1 + a2 + a3 + a4)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 4 (by show (4 : Nat) < 6; decide) _ y5 rfl rfl (a1 + (a2 + (a3 + (a4 + 0)))) rfl (ix2 (ρ p) ⟨j.val - (a1 + a2 + a3 + a4), hb⟩)
          (fun d hd => by match d with | ⟨0, _⟩ => rfl | ⟨1, _⟩ => exact absurd rfl hd) (by show a1 + (a2 + (a3 + (a4 + 0))) + (j.val - (a1 + a2 + a3 + a4)) = j.val; omega)]
    exact h5 p _
  · have hb : j.val - (a1 + a2 + a3 + a4 + a5) < a6 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 5 (by show (5 : Nat) < 6; decide) _ x6 rfl rfl (a1 + (a2 + (a3 + (a4 + (a5 + 0))))) rfl (ix2 p ⟨j.val - (a1 + a2 + a3 + a4 + a5), hb⟩)
          (fun d hd => by match d with | ⟨0, _⟩ => rfl | ⟨1, _⟩ => exact absurd rfl hd) (by show a1 + (a2 + (a3 + (a4 + (a5 + 0)))) + (j.val - (a1 + a2 + a3 + a4 + a5)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 5 (by show (5 : Nat) < 6; decide) _ y6 rfl rfl (a1 + (a2 + (a3 + (a4 + (a5 + 0))))) rfl (ix2 (ρ p) ⟨j.val - (a1 + a2 + a3 + a4 + a5), hb⟩)
          (fun d hd => by match d with | ⟨0, _⟩ => rfl | ⟨1, _⟩ => exact absurd rfl hd) (by show a1 + (a2 + (a3 + (a4 + (a5 + 0)))) + (j.val - (a1 + a2 + a3 + a4 + a5)) = j.val; omega)]
    exact h6 p _

end Cert.LibRowRel

end
-- ==== Proof.LibKeepdims.lean ====
/-
  Layout operations that keep or re-insert a UNIT axis, read at an index written by coordinates: the column forms a
  reduction with the reduced axis kept needs. A vector viewed as a column, a column repeated along its unit axis, and
  a matrix with a unit axis inserted between its two axes. Each is the general read-at-an-index lemma of the layout
  operation with the row-major positions (for a cast) or the per-axis coordinates (for a broadcast) worked out once.
  They hold for any extents and any element type.
-/
import Idealize.ShloMosaic.Lib.ValueLayout

namespace Idealize.ShloMosaic.Keepdims

open Idealize.ShloMosaic Idealize.ShloMosaic.ValueIdx

variable {α : Type}

/-- A vector of `a` entries cast to the column `[a, 1]` reads, at `(i, u)`, the vector at `i`: the column's
    row-major position `i * 1 + u` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`: every entry of a
    row is that row's one value. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A matrix `[a, b]` cast to `[a, 1, b]` reads, at `(i, u, j)`, the matrix at `(i, j)`: the inserted unit axis
    does not move the row-major position. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.Keepdims
-- ==== Proof.LibRowCol.lean ====
/-
  More operations that keep rows related (see LibRowRel).

  A column d : [M, 1] holds one number per row.  The vector unit repeats it along the columns with a broadcast; the host
  writes the same matrix as a broadcast_in_dim over both axes.  If row p of d is row ρ p of D then the two repeated
  matrices are related along ρ: at (p, j) the first reads d[p, 0], the second D[ρ p, 0].  A cast of a matrix to its
  own shape changes nothing, so it keeps any relation.  Any extents.
-/
import proofs.«133895_j43662637531875_1_alg».proof.Proof.LibRowRel
import proofs.«133895_j43662637531875_1_alg».proof.Proof.LibKeepdims

noncomputable section

namespace Cert.LibRowRel

open Idealize.ShloMosaic Idealize.ShloMosaic.ValueIdx

variable {M M' : Nat} {ρ : Fin M → Fin M'}

/-- A column repeated along the columns: related columns give related matrices. -/
theorem Rel.colBcast {N : Nat} {φ : FTy} {d : FVec Ideal ⟨2, ![M, 1]⟩ φ} {D : FVec Ideal ⟨2, ![M', 1]⟩ .f32} (h : Rel ρ d D)
    (hb : (⟨2, ![M, 1]⟩ : Shape).Broadcasts ⟨2, ![M, N]⟩) (hb' : (⟨2, ![M', 1]⟩ : Shape).BroadcastsInDim ⟨2, ![M', N]⟩ ![0, 1]) :
    Rel ρ (φ := φ) (broadcastTo ⟨2, ![M, N]⟩ d hb) (broadcastInDim ⟨2, ![M', N]⟩ ![0, 1] hb' D) := fun p j => by
  rw [Idealize.ShloMosaic.Keepdims.broadcastTo_a1_ab_apply d hb p j,
    broadcastInDim_apply ![0, 1] hb' D (ix2 (ρ p) j) (ix2 (ρ p) (0 : Fin 1)) (fun a => by
      match a with
      | ⟨0, _⟩ =>
        show (ρ p).val = if M' = 1 then 0 else (ρ p).val
        split
        · have := (ρ p).isLt; omega
        · rfl
      | ⟨1, _⟩ => show (0 : Nat) = if (1 : Nat) = 1 then 0 else _; rw [if_pos rfl])]
  exact h p 0

/-- A cast of the left matrix to its own shape keeps the relation. -/
theorem Rel.castSelf {N : Nat} {φ : FTy} {x : FVec Ideal ⟨2, ![M, N]⟩ φ} {y : FVec Ideal ⟨2, ![M', N]⟩ .f32} (h : Rel ρ x y)
    (hs : (⟨2, ![M, N]⟩ : Shape).ShapeCasts ⟨2, ![M, N]⟩) : Rel ρ (φ := φ) (shapeCast ⟨2, ![M, N]⟩ x hs) y := by
  rw [shapeCast_self]; exact h

end Cert.LibRowRel

end
-- ==== Proof.LibDotAt.lean ====
/-
  A matrix product read at one entry.

  For dimension numbers that contract the second axis of an M × K left operand with the first axis of a K × N right
  operand, with no batch axis, both the vector unit's matmul into a zero accumulator and the host's dot_general are, at
  the ideal values and at the output entry (p, q), the plain sum  Σ_{k < K} l[p,k] · r[k,q].  The four hypotheses say
  where the dimension numbers send an output index and a contraction index; for a printed record each is one line
  (unfold the operand index and decide which axes are batch, kept or contracted). Any extents.
-/
import Idealize.ShloMosaic.PureOps.Ideal.Laws
import Idealize.ShloMosaic.Lib.ValueIdx

noncomputable section

open scoped BigOperators

namespace Cert.LibDotAt

open Idealize.ShloMosaic Idealize.ShloMosaic.ValueIdx

variable {M K N : Nat} {φ₁ φ₂ : FTy}

/-- The operand indices of a plain M×K by K×N product, once the contraction index is the coordinate `k`. -/
theorem operand_idx (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (p : Fin M) (q : Fin N) (k : Fin K) :
    D.lhsIdx (ix2 p q) ((contrEquiv1 D K hr hs).symm k) = ix2 p k
      ∧ D.rhsIdx (ix2 p q) ((contrEquiv1 D K hr hs).symm k) = ix2 k q := by
  have hk := contrEquiv1_symm_val D K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The vector unit's matmul into the zero accumulator, at entry (p, q). -/
theorem matmul_zero_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ φ₁) (r : FVec Ideal ⟨2, ![K, N]⟩ φ₂)
    (p : Fin M) (q : Fin N) :
    FloatOps.matmul D prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p q k
  rw [el, er]

/-- The host's dot_general, at entry (p, q): the same sum, whatever the schedule. -/
theorem dotGeneral_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  rw [Ideal.dotGeneral_apply, ← Equiv.sum_comp (contrEquiv1 D K hr hs).symm]
  refine Finset.sum_congr rfl fun k _ => ?_
  obtain ⟨el, er⟩ := operand_idx D hr hs hl0 hl1 hr0 hr1 p q k
  rw [el, er]

end Cert.LibDotAt

end
-- ==== Proof.LibRowDot.lean ====
/-
  A matrix product keeps rows related.

  If row p of l is row ρ p of l', and the right operands agree entry by entry, then row p of the vector unit's product
  l · w into the zero accumulator is row ρ p of the host's product l' · w': at the ideal values both are the plain sums
  Σ_k l[p,k] · w[k,q].  The dimension numbers enter through six facts (one contraction axis of extent K; where an output
  index and a contraction index go in each operand), collected in one record.  Any extents.
-/
import proofs.«133895_j43662637531875_1_alg».proof.Proof.LibDotAt
import proofs.«133895_j43662637531875_1_alg».proof.Proof.LibRowRel

noncomputable section

namespace Cert.LibRowRel

open Idealize.ShloMosaic Idealize.ShloMosaic.ValueIdx

/-- Dimension numbers of a plain M×K by K×N product: the second axis of the left operand is contracted with the first of the
    right one, nothing is batched. -/
structure Plain {M K N : Nat} (D : DotDims ⟨2, ![M, K]⟩ ⟨2, ![K, N]⟩ ⟨2, ![M, N]⟩) : Prop where
  rank : D.contr.rank = 1
  size : D.contr.size ⟨0, by omega⟩ = K
  l0 : ∀ (j : (⟨2, ![M, N]⟩ : Shape).Idx) (c : D.contr.Idx), (D.lhsIdx j c 0).val = (j 0).val
  l1 : ∀ (j : (⟨2, ![M, N]⟩ : Shape).Idx) (c : D.contr.Idx), (D.lhsIdx j c 1).val = (c ⟨0, by omega⟩).val
  r0 : ∀ (j : (⟨2, ![M, N]⟩ : Shape).Idx) (c : D.contr.Idx), (D.rhsIdx j c 0).val = (c ⟨0, by omega⟩).val
  r1 : ∀ (j : (⟨2, ![M, N]⟩ : Shape).Idx) (c : D.contr.Idx), (D.rhsIdx j c 1).val = (j 1).val

variable {M M' : Nat} {ρ : Fin M → Fin M'}

/-- Products of related left operands with equal right operands are related. -/
theorem Rel.matmul {K N : Nat} {φ₁ φ₂ : FTy}
    {D : DotDims ⟨2, ![M, K]⟩ ⟨2, ![K, N]⟩ ⟨2, ![M, N]⟩} {D' : DotDims ⟨2, ![M', K]⟩ ⟨2, ![K, N]⟩ ⟨2, ![M', N]⟩}
    (hD : Plain D) (hD' : Plain D')
    {l : FVec Ideal ⟨2, ![M, K]⟩ φ₁} {l' : FVec Ideal ⟨2, ![M', K]⟩ .f32}
    {w : FVec Ideal ⟨2, ![K, N]⟩ φ₂} {w' : FVec Ideal ⟨2, ![K, N]⟩ .f32}
    (hl : Rel ρ l l') (hw : ∀ i, (w i : EReal) = w' i) (prec prec' : Option ContractPrecision) :
    Rel ρ (φ := .f32) (matmul D prec l w (constant (F := Ideal) ⟨2, ![M, N]⟩ .f32 0x00000000#32))
      (Host.dotGeneral D' prec' l' w') := fun p j => by
  show FloatOps.matmul D prec l w (constant (F := Ideal) ⟨2, ![M, N]⟩ .f32 0x00000000#32) (ix2 p j)
    = FloatOps.dotGeneral D' prec' .single l' w' (ix2 (ρ p) j)
  rw [Cert.LibDotAt.matmul_zero_ix2 D hD.rank hD.size hD.l0 hD.l1 hD.r0 hD.r1,
    Cert.LibDotAt.dotGeneral_ix2 D' hD'.rank hD'.size hD'.l0 hD'.l1 hD'.r0 hD'.r1]
  refine Finset.sum_congr rfl fun k _ => ?_
  rw [hl p k, hw (ix2 k j)]

/-- A cast of a vector to its own shape changes nothing. -/
theorem castSelf {s : Shape} {φ : FTy} {x : FVec Ideal s φ} {y : FVec Ideal s .f32} (h : ∀ i, (x i : EReal) = y i)
    (hs : s.ShapeCasts s) : ∀ i, (shapeCast s x hs i : EReal) = y i := by
  rw [shapeCast_self]; exact h

end Cert.LibRowRel

end
-- ==== Proof.Rows.lean ====
/-
  The row tiling shared by the five kernel regions.

  Every region walks the 100000 nodes in 20 blocks of 5000 rows: row p of block t is row 5000·t + p of the array.
  A window whose blocks are such row tiles reads, at block coordinates (p, j), the array at (5000·t + p, j); a
  window whose one block is the whole array reads the array itself.
-/
import proofs.«133895_j43662637531875_1_alg».proof.Proof.LibRowCol
import proofs.«133895_j43662637531875_1_alg».proof.Proof.LibRowDot

noncomputable section

namespace Cert.Rows

open Idealize.ShloMosaic Idealize.ShloMosaic.ValueIdx

/-- Row p of block t. -/
def rowOf {n : Nat} (hn : n = 20) (t : Fin n) (p : Fin 5000) : Fin 100000 :=
  ⟨5000 * t.val + p.val, by have := t.isLt; have := p.isLt; omega⟩

theorem rowOf_val {n : Nat} (hn : n = 20) (t : Fin n) (p : Fin 5000) : (rowOf hn t p).val = 5000 * t.val + p.val := rfl

/-- Every row lies in the block numbered by its quotient by 5000. -/
theorem row_in_block (r : Fin 100000) : r.val / 5000 < 20 ∧ 5000 * (r.val / 5000) ≤ r.val ∧ r.val < 5000 * (r.val / 5000) + 5000 := by
  have := r.isLt; omega

end Cert.Rows

end
-- ==== Proof.Region0.lean ====
/-
  Region 0: h1 = x · W1, one block of 5000 rows per grid point.

  At grid point t the body loads rows 5000·t … 5000·t + 4999 of x and all of W1 and stores their product (the
  operands' rounding to bf16 is the identity on extended reals) into the same rows of the result.  So block t of the
  result holds rows 5000·t … of the whole product x · W1, the blocks cover the array, and the array ends at the
  product of the two arrays as the region finds them.
-/
import proofs.«133895_j43662637531875_1_alg».proof.Proof.Gen.KernelIdeal.Frame
import proofs.«133895_j43662637531875_1_alg».proof.Proof.Rows
import Idealize.ShloMosaic.Lib.Pipeline.Value

set_option maxRecDepth 16384

noncomputable section

namespace Cert.KernelIdeal.Region0

open Cert.KernelIdeal Cert.KernelIdeal.Gen Cert.LibRowRel Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The kernel's matmul contracts the second axis of the block with the first axis of the weights, nothing batched. -/
theorem plainK : Plain dot_S5000x128_S128x64_S5000x64_1_0_0_1_n_n where
  rank := rfl
  size := rfl
  l0 := fun j c => by
    unfold DotDims.lhsIdx
    rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
    rfl
  l1 := fun j c => dot_S5000x128_S128x64_S5000x64_1_0_0_1_n_n.lhsIdx_val_of_single rfl j c
  r0 := fun j c => dot_S5000x128_S128x64_S5000x64_1_0_0_1_n_n.rhsIdx_val_of_single rfl j c
  r1 := fun j c => by
    unfold DotDims.rhsIdx
    rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
    rfl

/-- The body's stored value, block against whole array: rows related on the left, equal weights. -/
theorem pay_rel {ρ : Fin 5000 → Fin 100000} {D' : DotDims ⟨2, ![100000, 128]⟩ ⟨2, ![128, 64]⟩ ⟨2, ![100000, 64]⟩} (hD' : Plain D')
    (x0 : Vec Ideal S5000x128 .f32) (x1 : Vec Ideal S128x64 .f32)
    (X : FVec Ideal ⟨2, ![100000, 128]⟩ .f32) (Wt : FVec Ideal ⟨2, ![128, 64]⟩ .f32)
    (h0 : Rel ρ (φ := .f32) x0 X) (h1 : ∀ i, (x1 i : EReal) = Wt i) :
    Rel ρ (φ := .f32) (k0_pay1 (F := Ideal) x0 x1) (Host.dotGeneral (F := Ideal) D' none X Wt) := by
  unfold k0_pay1
  exact Rel.matmul plainK hD' (Rel.truncf_left _ h0) h1 none none

/-- Window 0's block index at a grid point: one block of rows further down per point. -/
theorem idx_0 : ∀ t : Fin cfg0.N, win0_0.index t (0 : Fin 2) = t.val ∧ win0_0.index t (1 : Fin 2) = 0 :=
  (by decide +kernel : ∀ t : Fin grid0.N, _)

/-- Window 1's block index at a grid point: the one block, at every point. -/
theorem idx_1 : ∀ t : Fin cfg0.N, win0_1.index t (0 : Fin 2) = 0 ∧ win0_1.index t (1 : Fin 2) = 0 :=
  (by decide +kernel : ∀ t : Fin grid0.N, _)

/-- Window 2's block index at a grid point: one block of rows further down per point. -/
theorem idx_2 : ∀ t : Fin cfg0.N, win0_2.index t (0 : Fin 2) = t.val ∧ win0_2.index t (1 : Fin 2) = 0 :=
  (by decide +kernel : ∀ t : Fin grid0.N, _)

theorem emb_0 (t : Fin cfg0.N) (p : Fin 5000) (j : Fin 128) :
    ((cfg0.win 0).blk t).view.emb (ix2 p j) = ix2 (rowOf N_0 t p) j := by
  obtain ⟨e0, e1⟩ := idx_0 t
  funext a; apply Fin.ext
  match a with
  | ⟨0, _⟩ => show win0_0.index t (0 : Fin 2) * 5000 + 1 * p.val = 5000 * t.val + p.val; omega
  | ⟨1, _⟩ => show win0_0.index t (1 : Fin 2) * 128 + 1 * j.val = j.val; omega

theorem emb_1 (t : Fin cfg0.N) (i : S128x64.Idx) : ((cfg0.win 1).blk t).view.emb i = i := by
  obtain ⟨e0, e1⟩ := idx_1 t
  funext a; apply Fin.ext
  match a with
  | ⟨0, _⟩ => show win0_1.index t (0 : Fin 2) * 128 + 1 * (i 0).val = (i 0).val; omega
  | ⟨1, _⟩ => show win0_1.index t (1 : Fin 2) * 64 + 1 * (i 1).val = (i 1).val; omega

theorem emb_2 (t : Fin cfg0.N) (p : Fin 5000) (j : Fin 64) :
    ((cfg0.win 2).blk t).view.emb (ix2 p j) = ix2 (rowOf N_0 t p) j := by
  obtain ⟨e0, e1⟩ := idx_2 t
  funext a; apply Fin.ext
  match a with
  | ⟨0, _⟩ => show win0_2.index t (0 : Fin 2) * 5000 + 1 * p.val = 5000 * t.val + p.val; omega
  | ⟨1, _⟩ => show win0_2.index t (1 : Fin 2) * 64 + 1 * j.val = j.val; omega

/-- Block t of window 0 is rows 5000·t … 5000·t + 4999 of its array. -/
theorem blk_0 (c : Dev nD) (X : FVec Ideal ⟨2, ![100000, 128]⟩ .f32) (hX : V c main_arg0 = X) (t : Fin cfg0.N) :
    Rel (rowOf N_0 t) (φ := .f32) (iblk0 V c 0 t) X := fun p j => by
  subst hX
  show V c main_arg0 (((cfg0.win 0).blk t).view.emb (ix2 p j)) = V c main_arg0 (ix2 (rowOf N_0 t p) j)
  rw [emb_0]

/-- Window 1's one block is its whole array. -/
theorem blk_1 (c : Dev nD) (Wt : FVec Ideal ⟨2, ![128, 64]⟩ .f32) (hWt : V c main_arg2 = Wt) (t : Fin cfg0.N) (i : S128x64.Idx) :
    (iblk0 V c 1 t i : EReal) = Wt i := by
  subst hWt
  show V c main_arg2 (((cfg0.win 1).blk t).view.emb i) = V c main_arg2 i
  rw [emb_1]

/-- What point t writes back is block t of the whole-array result. -/
theorem flushed_eq (c : Dev nD) {D' : DotDims ⟨2, ![100000, 128]⟩ ⟨2, ![128, 64]⟩ ⟨2, ![100000, 64]⟩} (hD' : Plain D') (X : FVec Ideal ⟨2, ![100000, 128]⟩ .f32) (Wt : FVec Ideal ⟨2, ![128, 64]⟩ .f32) (hX : V c main_arg0 = X) (hWt : V c main_arg2 = Wt) (t : Fin cfg0.N) :
    (dat0 V c).flushed 2 t = ((cfg0.win 2).blk t).view.read (Elt Ideal) (Host.dotGeneral (F := Ideal) D' none X Wt) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext y
  obtain ⟨p, q, rfl⟩ : ∃ (p : Fin 5000) (q : Fin 64), y = ix2 p q := ⟨y 0, y 1, eq_ix2 y⟩
  show k0_pay1 (F := Ideal) (iblk0 V c 0 t) (iblk0 V c 1 t) (ix2 p q)
    = (Host.dotGeneral (F := Ideal) D' none X Wt) (((cfg0.win 2).blk t).view.emb (ix2 p q))
  rw [emb_2]
  exact pay_rel hD' _ _ X Wt (blk_0 V c X hX t) (blk_1 V c Wt hWt t) p q

theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- Every entry of the result lies in the block of the point numbered by its row's quotient by 5000. -/
theorem cover (i : S100000x64.Idx) : ∃ t : Fin cfg0.N, (cfg0.win 2).flush t = true ∧ i ∈ ((cfg0.win 2).blk t).view.set := by
  obtain ⟨hq, hlo, hhi⟩ := row_in_block (i 0)
  have hN : cfg0.N = 20 := N_0
  let t : Fin cfg0.N := ⟨(i 0).val / 5000, by omega⟩
  obtain ⟨e0, e1⟩ := idx_2 t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ =>
    have : (i 1).val < 64 := (i 1).isLt
    show win0_2.index t (1 : Fin 2) * 64 ≤ (i 1).val ∧ (i 1).val < win0_2.index t (1 : Fin 2) * 64 + 64; omega

/-- The result array after the region, as one function of the arrays the region finds. -/
theorem value (c : Dev nD) {D' : DotDims ⟨2, ![100000, 128]⟩ ⟨2, ![128, 64]⟩ ⟨2, ![100000, 64]⟩} (hD' : Plain D') (X : FVec Ideal ⟨2, ![100000, 128]⟩ .f32) (Wt : FVec Ideal ⟨2, ![128, 64]⟩ .f32) (hX : V c main_arg0 = X) (hWt : V c main_arg2 = Wt) :
    (dat0 V c).arrAt 2 cfg0.N = (Host.dotGeneral (F := Ideal) D' none X Wt) :=
  (dat0 V c).arrAt_eq_of_cover 2 _ (fun t _ => flushed_eq V c hD' X Wt hX hWt t) cover

end Cert.KernelIdeal.Region0

end
-- ==== Proof.LibRowVec.lean ====
/-
  A vector laid out as a matrix of one row.

  The vector unit reshapes a vector b : [N] to the one-row matrix [1, N]; the host writes the same matrix as a
  broadcast_in_dim of b along the second axis.  At the entry (u, j) both are b[j], whatever the unit coordinate u, so
  the two one-row matrices agree entry by entry.  Any extent N (for N = 1 the broadcast's unit-axis rule reads b[0], and
  j = 0 is the only column).
-/
import Idealize.ShloMosaic.Lib.ValueIdx
import Idealize.ShloMosaic.Lib.ValueLayout
import Idealize.ShloMosaic.Lib.Pipeline.Value

noncomputable section

namespace Cert.LibRowVec

open Idealize.ShloMosaic Idealize.ShloMosaic.ValueIdx

variable {α : Type} {N : Nat}

/-- The host's broadcast of a vector into a one-row matrix reads, at (u, j), the vector at j. -/
theorem bcastRow_apply (b : (⟨1, ![N]⟩ : Shape).Idx → α) (h : (⟨1, ![N]⟩ : Shape).BroadcastsInDim ⟨2, ![1, N]⟩ ![1])
    (u : Fin 1) (j : Fin N) : broadcastInDim ⟨2, ![1, N]⟩ ![1] h b (ix2 u j) = b (ix1 j) :=
  broadcastInDim_apply ![1] h b (ix2 u j) (ix1 j) (fun a => by
    match a with
    | ⟨0, _⟩ =>
      show j.val = if N = 1 then 0 else j.val
      split
      · have := j.isLt; omega
      · rfl)

/-- Every index of a rank-2 shape is a pair of coordinates. -/
theorem exists_ix2 {A B : Nat} (i : (⟨2, ![A, B]⟩ : Shape).Idx) : ∃ (p : Fin A) (q : Fin B), i = ix2 p q :=
  ⟨i 0, i 1, eq_ix2 i⟩

/-- The reshaped vector and the broadcast vector are the same one-row matrix. -/
theorem castRow_eq_bcastRow (b : (⟨1, ![N]⟩ : Shape).Idx → α) (hc : (⟨1, ![N]⟩ : Shape).ShapeCasts ⟨2, ![1, N]⟩)
    (hb : (⟨1, ![N]⟩ : Shape).BroadcastsInDim ⟨2, ![1, N]⟩ ![1]) (i : (⟨2, ![1, N]⟩ : Shape).Idx) :
    shapeCast ⟨2, ![1, N]⟩ b hc i = broadcastInDim ⟨2, ![1, N]⟩ ![1] hb b i := by
  obtain ⟨u, j, rfl⟩ := exists_ix2 i
  rw [shapeCast_a_1a_apply b hc u j, bcastRow_apply b hb u j]

end Cert.LibRowVec

end
-- ==== Proof.LibColVec.lean ====
/-
  A vector laid out as a matrix of one column.

  A vector b : [N] reshaped to the column [N, 1] and the host's broadcast_in_dim of b along the first axis to [N, 1]
  are the same matrix: at the entry (i, u) both are b[i], the unit coordinate u being 0.  Likewise the one-row forms
  (LibRowVec) as an equation of whole matrices.  Any extent N.
-/
import proofs.«133895_j43662637531875_1_alg».proof.Proof.LibKeepdims
import proofs.«133895_j43662637531875_1_alg».proof.Proof.LibRowVec

noncomputable section

namespace Cert.LibColVec

open Idealize.ShloMosaic Idealize.ShloMosaic.ValueIdx

variable {α : Type} {N : Nat}

/-- The host's broadcast of a vector into a one-column matrix reads, at (i, u), the vector at i. -/
theorem bcastCol_apply (b : (⟨1, ![N]⟩ : Shape).Idx → α) (h : (⟨1, ![N]⟩ : Shape).BroadcastsInDim ⟨2, ![N, 1]⟩ ![0])
    (i : Fin N) (u : Fin 1) : broadcastInDim ⟨2, ![N, 1]⟩ ![0] h b (ix2 i u) = b (ix1 i) :=
  broadcastInDim_apply ![0] h b (ix2 i u) (ix1 i) (fun a => by
    match a with
    | ⟨0, _⟩ =>
      show i.val = if N = 1 then 0 else i.val
      split
      · have := i.isLt; omega
      · rfl)

/-- The reshaped vector and the broadcast vector are the same one-column matrix. -/
theorem castCol_eq_bcastCol (b : (⟨1, ![N]⟩ : Shape).Idx → α) (hc : (⟨1, ![N]⟩ : Shape).ShapeCasts ⟨2, ![N, 1]⟩)
    (hb : (⟨1, ![N]⟩ : Shape).BroadcastsInDim ⟨2, ![N, 1]⟩ ![0]) :
    shapeCast ⟨2, ![N, 1]⟩ b hc = broadcastInDim ⟨2, ![N, 1]⟩ ![0] hb b := by
  funext i
  obtain ⟨p, u, rfl⟩ := Cert.LibRowVec.exists_ix2 i
  rw [Idealize.ShloMosaic.Keepdims.shapeCast_a_a1_apply b hc p u, bcastCol_apply b hb p u]

/-- The reshaped vector and the broadcast vector are the same one-row matrix. -/
theorem castRow_eq_bcastRow (b : (⟨1, ![N]⟩ : Shape).Idx → α) (hc : (⟨1, ![N]⟩ : Shape).ShapeCasts ⟨2, ![1, N]⟩)
    (hb : (⟨1, ![N]⟩ : Shape).BroadcastsInDim ⟨2, ![1, N]⟩ ![1]) :
    shapeCast ⟨2, ![1, N]⟩ b hc = broadcastInDim ⟨2, ![1, N]⟩ ![1] hb b :=
  funext fun i => Cert.LibRowVec.castRow_eq_bcastRow b hc hb i

end Cert.LibColVec

end
-- ==== Proof.ChainA.lean ====
/-
  The kernel program's buffers at the first two segment boundaries, read as stages of the reference.

  Both programs apply the same host operations to the edge list: the source and target rows (two slices of the index
  array), the degree (a scatter-add of ones, plus one), its inverse square root, the per-edge weight (two gathers and a
  product) and the self-loop weight (the square).  The kernel program lays the per-edge weight and the self-loop
  weight out as columns with a reshape where the reference uses a broadcast along the first axis: the same column.
  After the first region the buffer of h1 holds the whole product x · W1, which is the reference's first dot_general.
-/
import proofs.«133895_j43662637531875_1_alg».proof.Proof.Gen.KernelIdeal.Frame
import proofs.«133895_j43662637531875_1_alg».proof.Proof.Gen.ReferenceIdeal.Read
import proofs.«133895_j43662637531875_1_alg».proof.Proof.Region0
import proofs.«133895_j43662637531875_1_alg».proof.Proof.LibColVec
import Idealize.ShloMosaic.Lib.StableHlo.Run

set_option maxRecDepth 16384

noncomputable section

namespace Cert.KernelIdeal.Chain

open Cert.KernelIdeal Cert.KernelIdeal.Gen Cert.LibRowRel
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- A host stretch leaves a buffer that none of its operations writes as it found it. -/
macro "host_skip " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The argument arrays as launched -/

abbrev x0 : (⟨Cert.ReferenceIdeal.S100000x128, .f32⟩ : BufTy).Contents (Elt Ideal) := m ((c : Thread nD τ).loc main_arg0)
abbrev x1 : (⟨Cert.ReferenceIdeal.S2x1600000, .i32⟩ : BufTy).Contents (Elt Ideal) := m ((c : Thread nD τ).loc main_arg1)
abbrev x2 : (⟨Cert.ReferenceIdeal.S128x64, .f32⟩ : BufTy).Contents (Elt Ideal) := m ((c : Thread nD τ).loc main_arg2)
abbrev x3 : (⟨Cert.ReferenceIdeal.S64, .f32⟩ : BufTy).Contents (Elt Ideal) := m ((c : Thread nD τ).loc main_arg3)
abbrev x4 : (⟨Cert.ReferenceIdeal.S64x64, .f32⟩ : BufTy).Contents (Elt Ideal) := m ((c : Thread nD τ).loc main_arg4)
abbrev x5 : (⟨Cert.ReferenceIdeal.S64, .f32⟩ : BufTy).Contents (Elt Ideal) := m ((c : Thread nD τ).loc main_arg5)
abbrev x6 : (⟨Cert.ReferenceIdeal.S64x40, .f32⟩ : BufTy).Contents (Elt Ideal) := m ((c : Thread nD τ).loc main_arg6)
abbrev x7 : (⟨Cert.ReferenceIdeal.S40, .f32⟩ : BufTy).Contents (Elt Ideal) := m ((c : Thread nD τ).loc main_arg7)

/-! ## After the first host stretch -/

theorem W1_arg0 : W1 m ρ c (Proc.devRef .tc main_arg0) = x0 m c :=
  (show W1 m ρ c (Proc.devRef .tc main_arg0) = W0 m ρ c (Proc.devRef .tc main_arg0) by host_skip hostOps0 main_arg0).trans rfl
theorem W1_arg2 : W1 m ρ c (Proc.devRef .tc main_arg2) = x2 m c :=
  (show W1 m ρ c (Proc.devRef .tc main_arg2) = W0 m ρ c (Proc.devRef .tc main_arg2) by host_skip hostOps0 main_arg2).trans rfl
theorem W1_arg3 : W1 m ρ c (Proc.devRef .tc main_arg3) = x3 m c :=
  (show W1 m ρ c (Proc.devRef .tc main_arg3) = W0 m ρ c (Proc.devRef .tc main_arg3) by host_skip hostOps0 main_arg3).trans rfl
theorem W1_arg4 : W1 m ρ c (Proc.devRef .tc main_arg4) = x4 m c :=
  (show W1 m ρ c (Proc.devRef .tc main_arg4) = W0 m ρ c (Proc.devRef .tc main_arg4) by host_skip hostOps0 main_arg4).trans rfl
theorem W1_arg5 : W1 m ρ c (Proc.devRef .tc main_arg5) = x5 m c :=
  (show W1 m ρ c (Proc.devRef .tc main_arg5) = W0 m ρ c (Proc.devRef .tc main_arg5) by host_skip hostOps0 main_arg5).trans rfl
theorem W1_arg6 : W1 m ρ c (Proc.devRef .tc main_arg6) = x6 m c :=
  (show W1 m ρ c (Proc.devRef .tc main_arg6) = W0 m ρ c (Proc.devRef .tc main_arg6) by host_skip hostOps0 main_arg6).trans rfl
theorem W1_arg7 : W1 m ρ c (Proc.devRef .tc main_arg7) = x7 m c :=
  (show W1 m ρ c (Proc.devRef .tc main_arg7) = W0 m ρ c (Proc.devRef .tc main_arg7) by host_skip hostOps0 main_arg7).trans rfl

set_option maxHeartbeats 4000000 in
/-- The source rows of the edges. -/
theorem W1_v1 : W1 m ρ c (Proc.devRef .tc main_v1) = Cert.ReferenceIdeal.Read.val_main_v1 (F := Ideal) (x1 m c) := by
  show StableHlo.after (hostOps0 (F := Ideal)) (W0 m ρ c) (Proc.devRef .tc main_v1) = _
  after_results_simp
  rfl

set_option maxHeartbeats 4000000 in
/-- The target rows of the edges. -/
theorem W1_v3 : W1 m ρ c (Proc.devRef .tc main_v3) = Cert.ReferenceIdeal.Read.val_main_v3 (F := Ideal) (x1 m c) := by
  show StableHlo.after (hostOps0 (F := Ideal)) (W0 m ρ c) (Proc.devRef .tc main_v3) = _
  after_results_simp
  rfl

set_option maxHeartbeats 4000000 in
/-- The self-loop weight dinv², as a column: the kernel program's reshape is the reference's broadcast. -/
theorem W1_v12 : W1 m ρ c (Proc.devRef .tc main_v12) = Cert.ReferenceIdeal.Read.val_main_v41 (F := Ideal) (x1 m c) := by
  show StableHlo.after (hostOps0 (F := Ideal)) (W0 m ρ c) (Proc.devRef .tc main_v12) = _
  after_results_simp
  exact Cert.LibColVec.castCol_eq_bcastCol (Cert.ReferenceIdeal.Read.val_main_v40 (F := Ideal) (x1 m c)) _ _

set_option maxHeartbeats 4000000 in
/-- The per-edge weight dinv[src] · dinv[dst], as a column. -/
theorem W1_v28 : W1 m ρ c (Proc.devRef .tc main_v28) = Cert.ReferenceIdeal.Read.val_main_v34 (F := Ideal) (x1 m c) := by
  show StableHlo.after (hostOps0 (F := Ideal)) (W0 m ρ c) (Proc.devRef .tc main_v28) = _
  after_results_simp
  exact Cert.LibColVec.castCol_eq_bcastCol (Cert.ReferenceIdeal.Read.val_main_v26 (F := Ideal) (x1 m c)) _ _

/-! ## After the first region -/

/-- The reference's first product contracts the second axis of x with the first of W1. -/
theorem plain4 : Plain Cert.ReferenceIdeal.dot_S100000x128_S128x64_S100000x64_1_0_0_1_n_n :=
  ⟨rfl, rfl, Cert.ReferenceIdeal.Read.lhs_main_v4_0, Cert.ReferenceIdeal.Read.lhs_main_v4_1, Cert.ReferenceIdeal.Read.rhs_main_v4_0, Cert.ReferenceIdeal.Read.rhs_main_v4_1⟩

/-- h1 = x · W1, the reference's first dot_general. -/
theorem W2_v29 : W2 m ρ c (Proc.devRef .tc main_v29) = Cert.ReferenceIdeal.Read.val_main_v4 (F := Ideal) (x0 m c) (x2 m c) :=
  (W2_arr m ρ c 2).trans (Cert.KernelIdeal.Region0.value (V1 m ρ) c plain4 (x0 m c) (x2 m c) (W1_arg0 m ρ c) (W1_arg2 m ρ c))

theorem W2_v1 : W2 m ρ c (Proc.devRef .tc main_v1) = Cert.ReferenceIdeal.Read.val_main_v1 (F := Ideal) (x1 m c) :=
  (W2_of_ne m ρ c main_v1 (by decide)).trans (W1_v1 m ρ c)
theorem W2_v3 : W2 m ρ c (Proc.devRef .tc main_v3) = Cert.ReferenceIdeal.Read.val_main_v3 (F := Ideal) (x1 m c) :=
  (W2_of_ne m ρ c main_v3 (by decide)).trans (W1_v3 m ρ c)
theorem W2_v12 : W2 m ρ c (Proc.devRef .tc main_v12) = Cert.ReferenceIdeal.Read.val_main_v41 (F := Ideal) (x1 m c) :=
  (W2_of_ne m ρ c main_v12 (by decide)).trans (W1_v12 m ρ c)
theorem W2_v28 : W2 m ρ c (Proc.devRef .tc main_v28) = Cert.ReferenceIdeal.Read.val_main_v34 (F := Ideal) (x1 m c) :=
  (W2_of_ne m ρ c main_v28 (by decide)).trans (W1_v28 m ρ c)
theorem W2_arg3 : W2 m ρ c (Proc.devRef .tc main_arg3) = x3 m c :=
  (W2_of_ne m ρ c main_arg3 (by decide)).trans (W1_arg3 m ρ c)
theorem W2_arg4 : W2 m ρ c (Proc.devRef .tc main_arg4) = x4 m c :=
  (W2_of_ne m ρ c main_arg4 (by decide)).trans (W1_arg4 m ρ c)
theorem W2_arg5 : W2 m ρ c (Proc.devRef .tc main_arg5) = x5 m c :=
  (W2_of_ne m ρ c main_arg5 (by decide)).trans (W1_arg5 m ρ c)
theorem W2_arg6 : W2 m ρ c (Proc.devRef .tc main_arg6) = x6 m c :=
  (W2_of_ne m ρ c main_arg6 (by decide)).trans (W1_arg6 m ρ c)
theorem W2_arg7 : W2 m ρ c (Proc.devRef .tc main_arg7) = x7 m c :=
  (W2_of_ne m ρ c main_arg7 (by decide)).trans (W1_arg7 m ρ c)

end Cert.KernelIdeal.Chain

end
-- ==== Proof.Region1.lean ====
/-
  Region 1: x1 = max(agg1 + h1 · dinv² + b1, 0), one block of 5000 rows per grid point.

  At grid point t the body loads rows 5000·t … of the aggregate, of h1 and of the column dinv², and the one bias row,
  and stores max((agg + h · dinv²) + b, 0) into the same rows of the result: every operation treats the rows
  separately (the column is repeated along the columns, the bias row along the rows).  So block t of the result is
  rows 5000·t … of the same expression of the whole arrays, written the way the host spells its broadcasts.
-/
import proofs.«133895_j43662637531875_1_alg».proof.Proof.Gen.KernelIdeal.Frame
import proofs.«133895_j43662637531875_1_alg».proof.Proof.Rows
import Idealize.ShloMosaic.Lib.Pipeline.Value

set_option maxRecDepth 16384

noncomputable section

namespace Cert.KernelIdeal.Region1

open Cert.KernelIdeal Cert.KernelIdeal.Gen Cert.LibRowRel Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value, block against whole arrays. -/
theorem pay_rel {ρ : Fin 5000 → Fin 100000} (hbD : (⟨2, ![100000, 1]⟩ : Shape).BroadcastsInDim ⟨2, ![100000, 64]⟩ ![0, 1]) (hbB : (⟨2, ![1, 64]⟩ : Shape).BroadcastsInDim ⟨2, ![100000, 64]⟩ ![0, 1]) (hbZ : (⟨0, ![]⟩ : Shape).BroadcastsInDim ⟨2, ![100000, 64]⟩ ![])
    (x0 x1 : Vec Ideal S5000x64 .f32) (x2 : Vec Ideal S5000x1 .f32) (x3 : Vec Ideal S1x64 .f32)
    (A H : FVec Ideal ⟨2, ![100000, 64]⟩ .f32) (D : FVec Ideal ⟨2, ![100000, 1]⟩ .f32) (B : FVec Ideal ⟨2, ![1, 64]⟩ .f32)
    (h0 : Rel ρ (φ := .f32) x0 A) (h1 : Rel ρ (φ := .f32) x1 H) (h2 : Rel ρ (φ := .f32) x2 D) (h3 : ∀ i, (x3 i : EReal) = B i) :
    Rel ρ (φ := .f32) (k1_pay1 (F := Ideal) x0 x1 x2 x3) (maximumf (addf (addf A (mulf H (broadcastInDim ⟨2, ![100000, 64]⟩ ![0, 1] hbD D))) (broadcastInDim ⟨2, ![100000, 64]⟩ ![0, 1] hbB B)) (broadcastInDim ⟨2, ![100000, 64]⟩ ![] hbZ (constant (F := Ideal) ⟨0, ![]⟩ .f32 0x00000000#32))) := by
  unfold k1_pay1
  exact Rel.maximumf (Rel.addf (Rel.addf (Rel.castSelf h0 _) (Rel.mulf (Rel.castSelf h1 _) (Rel.colBcast (Rel.castSelf h2 _) _ hbD))) (Rel.biasRow (castSelf (φ := .f32) h3 _) _ hbB)) (Rel.splat _ hbZ)

/-- Window 0's block index at a grid point: one block of rows further down per point. -/
theorem idx_0 : ∀ t : Fin cfg1.N, win1_0.index t (0 : Fin 2) = t.val ∧ win1_0.index t (1 : Fin 2) = 0 :=
  (by decide +kernel : ∀ t : Fin grid1.N, _)

/-- Window 1's block index at a grid point: one block of rows further down per point. -/
theorem idx_1 : ∀ t : Fin cfg1.N, win1_1.index t (0 : Fin 2) = t.val ∧ win1_1.index t (1 : Fin 2) = 0 :=
  (by decide +kernel : ∀ t : Fin grid1.N, _)

/-- Window 2's block index at a grid point: one block of rows further down per point. -/
theorem idx_2 : ∀ t : Fin cfg1.N, win1_2.index t (0 : Fin 2) = t.val ∧ win1_2.index t (1 : Fin 2) = 0 :=
  (by decide +kernel : ∀ t : Fin grid1.N, _)

/-- Window 3's block index at a grid point: the one block, at every point. -/
theorem idx_3 : ∀ t : Fin cfg1.N, win1_3.index t (0 : Fin 2) = 0 ∧ win1_3.index t (1 : Fin 2) = 0 :=
  (by decide +kernel : ∀ t : Fin grid1.N, _)

/-- Window 4's block index at a grid point: one block of rows further down per point. -/
theorem idx_4 : ∀ t : Fin cfg1.N, win1_4.index t (0 : Fin 2) = t.val ∧ win1_4.index t (1 : Fin 2) = 0 :=
  (by decide +kernel : ∀ t : Fin grid1.N, _)

theorem emb_0 (t : Fin cfg1.N) (p : Fin 5000) (j : Fin 64) :
    ((cfg1.win 0).blk t).view.emb (ix2 p j) = ix2 (rowOf N_1 t p) j := by
  obtain ⟨e0, e1⟩ := idx_0 t
  funext a; apply Fin.ext
  match a with
  | ⟨0, _⟩ => show win1_0.index t (0 : Fin 2) * 5000 + 1 * p.val = 5000 * t.val + p.val; omega
  | ⟨1, _⟩ => show win1_0.index t (1 : Fin 2) * 64 + 1 * j.val = j.val; omega

theorem emb_1 (t : Fin cfg1.N) (p : Fin 5000) (j : Fin 64) :
    ((cfg1.win 1).blk t).view.emb (ix2 p j) = ix2 (rowOf N_1 t p) j := by
  obtain ⟨e0, e1⟩ := idx_1 t
  funext a; apply Fin.ext
  match a with
  | ⟨0, _⟩ => show win1_1.index t (0 : Fin 2) * 5000 + 1 * p.val = 5000 * t.val + p.val; omega
  | ⟨1, _⟩ => show win1_1.index t (1 : Fin 2) * 64 + 1 * j.val = j.val; omega

theorem emb_2 (t : Fin cfg1.N) (p : Fin 5000) (j : Fin 1) :
    ((cfg1.win 2).blk t).view.emb (ix2 p j) = ix2 (rowOf N_1 t p) j := by
  obtain ⟨e0, e1⟩ := idx_2 t
  funext a; apply Fin.ext
  match a with
  | ⟨0, _⟩ => show win1_2.index t (0 : Fin 2) * 5000 + 1 * p.val = 5000 * t.val + p.val; omega
  | ⟨1, _⟩ => show win1_2.index t (1 : Fin 2) * 1 + 1 * j.val = j.val; omega

theorem emb_3 (t : Fin cfg1.N) (i : S1x64.Idx) : ((cfg1.win 3).blk t).view.emb i = i := by
  obtain ⟨e0, e1⟩ := idx_3 t
  funext a; apply Fin.ext
  match a with
  | ⟨0, _⟩ => show win1_3.index t (0 : Fin 2) * 1 + 1 * (i 0).val = (i 0).val; omega
  | ⟨1, _⟩ => show win1_3.index t (1 : Fin 2) * 64 + 1 * (i 1).val = (i 1).val; omega

theorem emb_4 (t : Fin cfg1.N) (p : Fin 5000) (j : Fin 64) :
    ((cfg1.win 4).blk t).view.emb (ix2 p j) = ix2 (rowOf N_1 t p) j := by
  obtain ⟨e0, e1⟩ := idx_4 t
  funext a; apply Fin.ext
  match a with
  | ⟨0, _⟩ => show win1_4.index t (0 : Fin 2) * 5000 + 1 * p.val = 5000 * t.val + p.val; omega
  | ⟨1, _⟩ => show win1_4.index t (1 : Fin 2) * 64 + 1 * j.val = j.val; omega

/-- Block t of window 0 is rows 5000·t … 5000·t + 4999 of its array. -/
theorem blk_0 (c : Dev nD) (A : FVec Ideal ⟨2, ![100000, 64]⟩ .f32) (hA : V c main_v41 = A) (t : Fin cfg1.N) :
    Rel (rowOf N_1 t) (φ := .f32) (iblk1 V c 0 t) A := fun p j => by
  subst hA
  show V c main_v41 (((cfg1.win 0).blk t).view.emb (ix2 p j)) = V c main_v41 (ix2 (rowOf N_1 t p) j)
  rw [emb_0]

/-- Block t of window 1 is rows 5000·t … 5000·t + 4999 of its array. -/
theorem blk_1 (c : Dev nD) (H : FVec Ideal ⟨2, ![100000, 64]⟩ .f32) (hH : V c main_v29 = H) (t : Fin cfg1.N) :
    Rel (rowOf N_1 t) (φ := .f32) (iblk1 V c 1 t) H := fun p j => by
  subst hH
  show V c main_v29 (((cfg1.win 1).blk t).view.emb (ix2 p j)) = V c main_v29 (ix2 (rowOf N_1 t p) j)
  rw [emb_1]

/-- Block t of window 2 is rows 5000·t … 5000·t + 4999 of its array. -/
theorem blk_2 (c : Dev nD) (D : FVec Ideal ⟨2, ![100000, 1]⟩ .f32) (hD : V c main_v12 = D) (t : Fin cfg1.N) :
    Rel (rowOf N_1 t) (φ := .f32) (iblk1 V c 2 t) D := fun p j => by
  subst hD
  show V c main_v12 (((cfg1.win 2).blk t).view.emb (ix2 p j)) = V c main_v12 (ix2 (rowOf N_1 t p) j)
  rw [emb_2]

/-- Window 3's one block is its whole array. -/
theorem blk_3 (c : Dev nD) (B : FVec Ideal ⟨2, ![1, 64]⟩ .f32) (hB : V c main_v42 = B) (t : Fin cfg1.N) (i : S1x64.Idx) :
    (iblk1 V c 3 t i : EReal) = B i := by
  subst hB
  show V c main_v42 (((cfg1.win 3).blk t).view.emb i) = V c main_v42 i
  rw [emb_3]

/-- What point t writes back is block t of the whole-array result. -/
theorem flushed_eq (c : Dev nD) (hbD : (⟨2, ![100000, 1]⟩ : Shape).BroadcastsInDim ⟨2, ![100000, 64]⟩ ![0, 1]) (hbB : (⟨2, ![1, 64]⟩ : Shape).BroadcastsInDim ⟨2, ![100000, 64]⟩ ![0, 1]) (hbZ : (⟨0, ![]⟩ : Shape).BroadcastsInDim ⟨2, ![100000, 64]⟩ ![]) (A : FVec Ideal ⟨2, ![100000, 64]⟩ .f32) (H : FVec Ideal ⟨2, ![100000, 64]⟩ .f32) (D : FVec Ideal ⟨2, ![100000, 1]⟩ .f32) (B : FVec Ideal ⟨2, ![1, 64]⟩ .f32) (hA : V c main_v41 = A) (hH : V c main_v29 = H) (hD : V c main_v12 = D) (hB : V c main_v42 = B) (t : Fin cfg1.N) :
    (dat1 V c).flushed 4 t = ((cfg1.win 4).blk t).view.read (Elt Ideal) (maximumf (addf (addf A (mulf H (broadcastInDim ⟨2, ![100000, 64]⟩ ![0, 1] hbD D))) (broadcastInDim ⟨2, ![100000, 64]⟩ ![0, 1] hbB B)) (broadcastInDim ⟨2, ![100000, 64]⟩ ![] hbZ (constant (F := Ideal) ⟨0, ![]⟩ .f32 0x00000000#32))) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  funext y
  obtain ⟨p, q, rfl⟩ : ∃ (p : Fin 5000) (q : Fin 64), y = ix2 p q := ⟨y 0, y 1, eq_ix2 y⟩
  show k1_pay1 (F := Ideal) (iblk1 V c 0 t) (iblk1 V c 1 t) (iblk1 V c 2 t) (iblk1 V c 3 t) (ix2 p q)
    = (maximumf (addf (addf A (mulf H (broadcastInDim ⟨2, ![100000, 64]⟩ ![0, 1] hbD D))) (broadcastInDim ⟨2, ![100000, 64]⟩ ![0, 1] hbB B)) (broadcastInDim ⟨2, ![100000, 64]⟩ ![] hbZ (constant (F := Ideal) ⟨0, ![]⟩ .f32 0x00000000#32))) (((cfg1.win 4).blk t).view.emb (ix2 p q))
  rw [emb_4]
  exact pay_rel hbD hbB hbZ _ _ _ _ A H D B (blk_0 V c A hA t) (blk_1 V c H hH t) (blk_2 V c D hD t) (blk_3 V c B hB t) p q

theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

/-- Every entry of the result lies in the block of the point numbered by its row's quotient by 5000. -/
theorem cover (i : S100000x64.Idx) : ∃ t : Fin cfg1.N, (cfg1.win 4).flush t = true ∧ i ∈ ((cfg1.win 4).blk t).view.set := by
  obtain ⟨hq, hlo, hhi⟩ := row_in_block (i 0)
  have hN : cfg1.N = 20 := N_1
  let t : Fin cfg1.N := ⟨(i 0).val / 5000, by omega⟩
  obtain ⟨e0, e1⟩ := idx_4 t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ =>
    have : (i 1).val < 64 := (i 1).isLt
    show win1_4.index t (1 : Fin 2) * 64 ≤ (i 1).val ∧ (i 1).val < win1_4.index t (1 : Fin 2) * 64 + 64; omega

/-- The result array after the region, as one function of the arrays the region finds. -/
theorem value (c : Dev nD) (hbD : (⟨2, ![100000, 1]⟩ : Shape).BroadcastsInDim ⟨2, ![100000, 64]⟩ ![0, 1]) (hbB : (⟨2, ![1, 64]⟩ : Shape).BroadcastsInDim ⟨2, ![100000, 64]⟩ ![0, 1]) (hbZ : (⟨0, ![]⟩ : Shape).BroadcastsInDim ⟨2, ![100000, 64]⟩ ![]) (A : FVec Ideal ⟨2, ![100000, 64]⟩ .f32) (H : FVec Ideal ⟨2, ![100000, 64]⟩ .f32) (D : FVec Ideal ⟨2, ![100000, 1]⟩ .f32) (B : FVec Ideal ⟨2, ![1, 64]⟩ .f32) (hA : V c main_v41 = A) (hH : V c main_v29 = H) (hD : V c main_v12 = D) (hB : V c main_v42 = B) :
    (dat1 V c).arrAt 4 cfg1.N = (maximumf (addf (addf A (mulf H (broadcastInDim ⟨2, ![100000, 64]⟩ ![0, 1] hbD D))) (broadcastInDim ⟨2, ![100000, 64]⟩ ![0, 1] hbB B)) (broadcastInDim ⟨2, ![100000, 64]⟩ ![] hbZ (constant (F := Ideal) ⟨0, ![]⟩ .f32 0x00000000#32))) :=
  (dat1 V c).arrAt_eq_of_cover 4 _ (fun t _ => flushed_eq V c hbD hbB hbZ A H D B hA hH hD hB t) cover

end Cert.KernelIdeal.Region1

end
-- ==== Proof.ChainB.lean ====
/-
  The kernel program's buffers after the second host stretch and the first combine region.

  The host gathers the rows of h1 at the edges' sources, scales them by the per-edge weight and scatter-adds them at
  the targets: the same operations on the same operands as the reference's first aggregation.  The bias vector is
  laid out as a row with a reshape where the reference broadcasts along the second axis: the same row.  The region
  then leaves x1 = max(agg1 + h1 · dinv² + b1, 0), the reference's first layer after its relu.
-/
import proofs.«133895_j43662637531875_1_alg».proof.Proof.ChainA
import proofs.«133895_j43662637531875_1_alg».proof.Proof.Region1
import Idealize.ShloMosaic.Lib.StableHlo.Run

set_option maxRecDepth 16384

noncomputable section

namespace Cert.KernelIdeal.Chain

open Cert.KernelIdeal Cert.KernelIdeal.Gen Cert.LibRowRel
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

set_option maxHeartbeats 4000000 in
/-- The first aggregate: gather at the sources, scale, scatter-add at the targets. -/
theorem W3_v41 : W3 m ρ c (Proc.devRef .tc main_v41) = Cert.ReferenceIdeal.Read.val_main_v39 (F := Ideal) (x0 m c) (x1 m c) (x2 m c) := by
  show StableHlo.after (hostOps1 (F := Ideal)) (W2 m ρ c) (Proc.devRef .tc main_v41) = _
  after_results_simp
  rw [W2_v29 m ρ c, W2_v3 m ρ c, W2_v1 m ρ c, W2_v28 m ρ c]
  rfl

set_option maxHeartbeats 4000000 in
/-- The first bias vector as a row. -/
theorem W3_v42 : W3 m ρ c (Proc.devRef .tc main_v42) = Cert.ReferenceIdeal.Read.val_main_v45 (F := Ideal) (x3 m c) := by
  show StableHlo.after (hostOps1 (F := Ideal)) (W2 m ρ c) (Proc.devRef .tc main_v42) = _
  after_results_simp
  rw [W2_arg3 m ρ c]
  exact Cert.LibColVec.castRow_eq_bcastRow (x3 m c) _ _

theorem W3_v29 : W3 m ρ c (Proc.devRef .tc main_v29) = Cert.ReferenceIdeal.Read.val_main_v4 (F := Ideal) (x0 m c) (x2 m c) :=
  (show W3 m ρ c (Proc.devRef .tc main_v29) = W2 m ρ c (Proc.devRef .tc main_v29) by host_skip hostOps1 main_v29).trans (W2_v29 m ρ c)
theorem W3_v12 : W3 m ρ c (Proc.devRef .tc main_v12) = Cert.ReferenceIdeal.Read.val_main_v41 (F := Ideal) (x1 m c) :=
  (show W3 m ρ c (Proc.devRef .tc main_v12) = W2 m ρ c (Proc.devRef .tc main_v12) by host_skip hostOps1 main_v12).trans (W2_v12 m ρ c)
theorem W3_v1 : W3 m ρ c (Proc.devRef .tc main_v1) = Cert.ReferenceIdeal.Read.val_main_v1 (F := Ideal) (x1 m c) :=
  (show W3 m ρ c (Proc.devRef .tc main_v1) = W2 m ρ c (Proc.devRef .tc main_v1) by host_skip hostOps1 main_v1).trans (W2_v1 m ρ c)
theorem W3_v3 : W3 m ρ c (Proc.devRef .tc main_v3) = Cert.ReferenceIdeal.Read.val_main_v3 (F := Ideal) (x1 m c) :=
  (show W3 m ρ c (Proc.devRef .tc main_v3) = W2 m ρ c (Proc.devRef .tc main_v3) by host_skip hostOps1 main_v3).trans (W2_v3 m ρ c)
theorem W3_v28 : W3 m ρ c (Proc.devRef .tc main_v28) = Cert.ReferenceIdeal.Read.val_main_v34 (F := Ideal) (x1 m c) :=
  (show W3 m ρ c (Proc.devRef .tc main_v28) = W2 m ρ c (Proc.devRef .tc main_v28) by host_skip hostOps1 main_v28).trans (W2_v28 m ρ c)
theorem W3_arg4 : W3 m ρ c (Proc.devRef .tc main_arg4) = x4 m c :=
  (show W3 m ρ c (Proc.devRef .tc main_arg4) = W2 m ρ c (Proc.devRef .tc main_arg4) by host_skip hostOps1 main_arg4).trans (W2_arg4 m ρ c)
theorem W3_arg5 : W3 m ρ c (Proc.devRef .tc main_arg5) = x5 m c :=
  (show W3 m ρ c (Proc.devRef .tc main_arg5) = W2 m ρ c (Proc.devRef .tc main_arg5) by host_skip hostOps1 main_arg5).trans (W2_arg5 m ρ c)
theorem W3_arg6 : W3 m ρ c (Proc.devRef .tc main_arg6) = x6 m c :=
  (show W3 m ρ c (Proc.devRef .tc main_arg6) = W2 m ρ c (Proc.devRef .tc main_arg6) by host_skip hostOps1 main_arg6).trans (W2_arg6 m ρ c)
theorem W3_arg7 : W3 m ρ c (Proc.devRef .tc main_arg7) = x7 m c :=
  (show W3 m ρ c (Proc.devRef .tc main_arg7) = W2 m ρ c (Proc.devRef .tc main_arg7) by host_skip hostOps1 main_arg7).trans (W2_arg7 m ρ c)

/-- x1, the first layer's output. -/
theorem W4_v43 : W4 m ρ c (Proc.devRef .tc main_v43) = Cert.ReferenceIdeal.Read.val_main_v48 (F := Ideal) (x0 m c) (x1 m c) (x2 m c) (x3 m c) :=
  (W4_arr m ρ c 4).trans ((Cert.KernelIdeal.Region1.value (V3 m ρ) c Cert.ReferenceIdeal.Gen.bcast_S100000x1_S100000x64_0_1 Cert.ReferenceIdeal.Gen.bcast_S1x64_S100000x64_0_1 Cert.ReferenceIdeal.Gen.bcast_S_S100000x64
    (Cert.ReferenceIdeal.Read.val_main_v39 (F := Ideal) (x0 m c) (x1 m c) (x2 m c)) (Cert.ReferenceIdeal.Read.val_main_v4 (F := Ideal) (x0 m c) (x2 m c)) (Cert.ReferenceIdeal.Read.val_main_v41 (F := Ideal) (x1 m c)) (Cert.ReferenceIdeal.Read.val_main_v45 (F := Ideal) (x3 m c))
    (W3_v41 m ρ c) (W3_v29 m ρ c) (W3_v12 m ρ c) (W3_v42 m ρ c)).trans rfl)

theorem W4_v12 : W4 m ρ c (Proc.devRef .tc main_v12) = Cert.ReferenceIdeal.Read.val_main_v41 (F := Ideal) (x1 m c) :=
  ((W4_arr m ρ c 2).trans (((dat1 (V3 m ρ) c).arrAt_in 2 rfl _).trans (A_eq1 (V3 m ρ) c 2))).trans (W3_v12 m ρ c)
theorem W4_v1 : W4 m ρ c (Proc.devRef .tc main_v1) = Cert.ReferenceIdeal.Read.val_main_v1 (F := Ideal) (x1 m c) :=
  (W4_of_ne m ρ c main_v1 (by decide)).trans (W3_v1 m ρ c)
theorem W4_v3 : W4 m ρ c (Proc.devRef .tc main_v3) = Cert.ReferenceIdeal.Read.val_main_v3 (F := Ideal) (x1 m c) :=
  (W4_of_ne m ρ c main_v3 (by decide)).trans (W3_v3 m ρ c)
theorem W4_v28 : W4 m ρ c (Proc.devRef .tc main_v28) = Cert.ReferenceIdeal.Read.val_main_v34 (F := Ideal) (x1 m c) :=
  (W4_of_ne m ρ c main_v28 (by decide)).trans (W3_v28 m ρ c)
theorem W4_arg4 : W4 m ρ c (Proc.devRef .tc main_arg4) = x4 m c :=
  (W4_of_ne m ρ c main_arg4 (by decide)).trans (W3_arg4 m ρ c)
theorem W4_arg5 : W4 m ρ c (Proc.devRef .tc main_arg5) = x5 m c :=
  (W4_of_ne m ρ c main_arg5 (by decide)).trans (W3_arg5 m ρ c)
theorem W4_arg6 : W4 m ρ c (Proc.devRef .tc main_arg6) = x6 m c :=
  (W4_of_ne m ρ c main_arg6 (by decide)).trans (W3_arg6 m ρ c)
theorem W4_arg7 : W4 m ρ c (Proc.devRef .tc main_arg7) = x7 m c :=
  (W4_of_ne m ρ c main_arg7 (by decide)).trans (W3_arg7 m ρ c)

end Cert.KernelIdeal.Chain

end
-- ==== Proof.Region2.lean ====
/-
  Region 2: h2 = x1 · W2, one block of 5000 rows per grid point.

  At grid point t the body loads rows 5000·t … of x1 and all of W2 and stores their product into the same rows of
  the result (rounding the operands to bf16 is the identity on extended reals).  Block t of the result is rows
  5000·t … of the whole product.
-/
import proofs.«133895_j43662637531875_1_alg».proof.Proof.Gen.KernelIdeal.Frame
import proofs.«133895_j43662637531875_1_alg».proof.Proof.Rows
import Idealize.ShloMosaic.Lib.Pipeline.Value

set_option maxRecDepth 16384

noncomputable section

namespace Cert.KernelIdeal.Region2

open Cert.KernelIdeal Cert.KernelIdeal.Gen Cert.LibRowRel Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The kernel's matmul contracts the second axis of the block with the first axis of the weights, nothing batched. -/
theorem plainK : Plain dot_S5000x64_S64x64_S5000x64_1_0_0_1_n_n where
  rank := rfl
  size := rfl
  l0 := fun j c => by
    unfold DotDims.lhsIdx
    rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
    rfl
  l1 := fun j c => dot_S5000x64_S64x64_S5000x64_1_0_0_1_n_n.lhsIdx_val_of_single rfl j c
  r0 := fun j c => dot_S5000x64_S64x64_S5000x64_1_0_0_1_n_n.rhsIdx_val_of_single rfl j c
  r1 := fun j c => by
    unfold DotDims.rhsIdx
    rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
    rfl

/-- The body's stored value, block against whole array: rows related on the left, equal weights. -/
theorem pay_rel {ρ : Fin 5000 → Fin 100000} {D' : DotDims ⟨2, ![100000, 64]⟩ ⟨2, ![64, 64]⟩ ⟨2, ![100000, 64]⟩} (hD' : Plain D')
    (x0 : Vec Ideal S5000x64 .f32) (x1 : Vec Ideal S64x64 .f32)
    (X : FVec Ideal ⟨2, ![100000, 64]⟩ .f32) (Wt : FVec Ideal ⟨2, ![64, 64]⟩ .f32)
    (h0 : Rel ρ (φ := .f32) x0 X) (h1 : ∀ i, (x1 i : EReal) = Wt i) :
    Rel ρ (φ := .f32) (k2_pay1 (F := Ideal) x0 x1) (Host.dotGeneral (F := Ideal) D' none X Wt) := by
  unfold k2_pay1
  exact Rel.matmul plainK hD' (Rel.truncf_left _ (Rel.castSelf h0 _)) h1 none none

/-- Window 0's block index at a grid point: one block of rows further down per point. -/
theorem idx_0 : ∀ t : Fin cfg2.N, win2_0.index t (0 : Fin 2) = t.val ∧ win2_0.index t (1 : Fin 2) = 0 :=
  (by decide +kernel : ∀ t : Fin grid2.N, _)

/-- Window 1's block index at a grid point: the one block, at every point. -/
theorem idx_1 : ∀ t : Fin cfg2.N, win2_1.index t (0 : Fin 2) = 0 ∧ win2_1.index t (1 : Fin 2) = 0 :=
  (by decide +kernel : ∀ t : Fin grid2.N, _)

/-- Window 2's block index at a grid point: one block of rows further down per point. -/
theorem idx_2 : ∀ t : Fin cfg2.N, win2_2.index t (0 : Fin 2) = t.val ∧ win2_2.index t (1 : Fin 2) = 0 :=
  (by decide +kernel : ∀ t : Fin grid2.N, _)

theorem emb_0 (t : Fin cfg2.N) (p : Fin 5000) (j : Fin 64) :
    ((cfg2.win 0).blk t).view.emb (ix2 p j) = ix2 (rowOf N_2 t p) j := by
  obtain ⟨e0, e1⟩ := idx_0 t
  funext a; apply Fin.ext
  match a with
  | ⟨0, _⟩ => show win2_0.index t (0 : Fin 2) * 5000 + 1 * p.val = 5000 * t.val + p.val; omega
  | ⟨1, _⟩ => show win2_0.index t (1 : Fin 2) * 64 + 1 * j.val = j.val; omega

theorem emb_1 (t : Fin cfg2.N) (i : S64x64.Idx) : ((cfg2.win 1).blk t).view.emb i = i := by
  obtain ⟨e0, e1⟩ := idx_1 t
  funext a; apply Fin.ext
  match a with
  | ⟨0, _⟩ => show win2_1.index t (0 : Fin 2) * 64 + 1 * (i 0).val = (i 0).val; omega
  | ⟨1, _⟩ => show win2_1.index t (1 : Fin 2) * 64 + 1 * (i 1).val = (i 1).val; omega

theorem emb_2 (t : Fin cfg2.N) (p : Fin 5000) (j : Fin 64) :
    ((cfg2.win 2).blk t).view.emb (ix2 p j) = ix2 (rowOf N_2 t p) j := by
  obtain ⟨e0, e1⟩ := idx_2 t
  funext a; apply Fin.ext
  match a with
  | ⟨0, _⟩ => show win2_2.index t (0 : Fin 2) * 5000 + 1 * p.val = 5000 * t.val + p.val; omega
  | ⟨1, _⟩ => show win2_2.index t (1 : Fin 2) * 64 + 1 * j.val = j.val; omega

/-- Block t of window 0 is rows 5000·t … 5000·t + 4999 of its array. -/
theorem blk_0 (c : Dev nD) (X : FVec Ideal ⟨2, ![100000, 64]⟩ .f32) (hX : V c main_v43 = X) (t : Fin cfg2.N) :
    Rel (rowOf N_2 t) (φ := .f32) (iblk2 V c 0 t) X := fun p j => by
  subst hX
  show V c main_v43 (((cfg2.win 0).blk t).view.emb (ix2 p j)) = V c main_v43 (ix2 (rowOf N_2 t p) j)
  rw [emb_0]

/-- Window 1's one block is its whole array. -/
theorem blk_1 (c : Dev nD) (Wt : FVec Ideal ⟨2, ![64, 64]⟩ .f32) (hWt : V c main_arg4 = Wt) (t : Fin cfg2.N) (i : S64x64.Idx) :
    (iblk2 V c 1 t i : EReal) = Wt i := by
  subst hWt
  show V c main_arg4 (((cfg2.win 1).blk t).view.emb i) = V c main_arg4 i
  rw [emb_1]

/-- What point t writes back is block t of the whole-array result. -/
theorem flushed_eq (c : Dev nD) {D' : DotDims ⟨2, ![100000, 64]⟩ ⟨2, ![64, 64]⟩ ⟨2, ![100000, 64]⟩} (hD' : Plain D') (X : FVec Ideal ⟨2, ![100000, 64]⟩ .f32) (Wt : FVec Ideal ⟨2, ![64, 64]⟩ .f32) (hX : V c main_v43 = X) (hWt : V c main_arg4 = Wt) (t : Fin cfg2.N) :
    (dat2 V c).flushed 2 t = ((cfg2.win 2).blk t).view.read (Elt Ideal) (Host.dotGeneral (F := Ideal) D' none X Wt) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  funext y
  obtain ⟨p, q, rfl⟩ : ∃ (p : Fin 5000) (q : Fin 64), y = ix2 p q := ⟨y 0, y 1, eq_ix2 y⟩
  show k2_pay1 (F := Ideal) (iblk2 V c 0 t) (iblk2 V c 1 t) (ix2 p q)
    = (Host.dotGeneral (F := Ideal) D' none X Wt) (((cfg2.win 2).blk t).view.emb (ix2 p q))
  rw [emb_2]
  exact pay_rel hD' _ _ X Wt (blk_0 V c X hX t) (blk_1 V c Wt hWt t) p q

theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v44).slice (win2_2.rect t)).set ↔ _
  rw [View.set_slice_whole, Rect.mem_set_unit]
  exact Iff.rfl

/-- Every entry of the result lies in the block of the point numbered by its row's quotient by 5000. -/
theorem cover (i : S100000x64.Idx) : ∃ t : Fin cfg2.N, (cfg2.win 2).flush t = true ∧ i ∈ ((cfg2.win 2).blk t).view.set := by
  obtain ⟨hq, hlo, hhi⟩ := row_in_block (i 0)
  have hN : cfg2.N = 20 := N_2
  let t : Fin cfg2.N := ⟨(i 0).val / 5000, by omega⟩
  obtain ⟨e0, e1⟩ := idx_2 t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ =>
    have : (i 1).val < 64 := (i 1).isLt
    show win2_2.index t (1 : Fin 2) * 64 ≤ (i 1).val ∧ (i 1).val < win2_2.index t (1 : Fin 2) * 64 + 64; omega

/-- The result array after the region, as one function of the arrays the region finds. -/
theorem value (c : Dev nD) {D' : DotDims ⟨2, ![100000, 64]⟩ ⟨2, ![64, 64]⟩ ⟨2, ![100000, 64]⟩} (hD' : Plain D') (X : FVec Ideal ⟨2, ![100000, 64]⟩ .f32) (Wt : FVec Ideal ⟨2, ![64, 64]⟩ .f32) (hX : V c main_v43 = X) (hWt : V c main_arg4 = Wt) :
    (dat2 V c).arrAt 2 cfg2.N = (Host.dotGeneral (F := Ideal) D' none X Wt) :=
  (dat2 V c).arrAt_eq_of_cover 2 _ (fun t _ => flushed_eq V c hD' X Wt hX hWt t) cover

end Cert.KernelIdeal.Region2

end
-- ==== Proof.ChainC.lean ====
/-
  The kernel program's buffers after the second matmul region and the third host stretch.

  The region leaves h2 = x1 · W2, the reference's second dot_general.  The host then aggregates h2 over the edges with
  the per-edge weight it computed once, where the reference recomputes degree and weights for its second layer: the
  same operations on the same edge list, hence the same arrays.
-/
import proofs.«133895_j43662637531875_1_alg».proof.Proof.ChainB
import proofs.«133895_j43662637531875_1_alg».proof.Proof.Region2
import Idealize.ShloMosaic.Lib.StableHlo.Run

set_option maxRecDepth 16384

noncomputable section

namespace Cert.KernelIdeal.Chain

open Cert.KernelIdeal Cert.KernelIdeal.Gen Cert.LibRowRel
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The reference's second product contracts the second axis of x1 with the first of W2. -/
theorem plain49 : Plain Cert.ReferenceIdeal.dot_S100000x64_S64x64_S100000x64_1_0_0_1_n_n :=
  ⟨rfl, rfl, Cert.ReferenceIdeal.Read.lhs_main_v49_0, Cert.ReferenceIdeal.Read.lhs_main_v49_1, Cert.ReferenceIdeal.Read.rhs_main_v49_0, Cert.ReferenceIdeal.Read.rhs_main_v49_1⟩

/-- h2 = x1 · W2. -/
theorem W5_v44 : W5 m ρ c (Proc.devRef .tc main_v44) = Cert.ReferenceIdeal.Read.val_main_v49 (F := Ideal) (x0 m c) (x1 m c) (x2 m c) (x3 m c) (x4 m c) :=
  (W5_arr m ρ c 2).trans ((Cert.KernelIdeal.Region2.value (V4 m ρ) c plain49 (Cert.ReferenceIdeal.Read.val_main_v48 (F := Ideal) (x0 m c) (x1 m c) (x2 m c) (x3 m c)) (x4 m c) (W4_v43 m ρ c) (W4_arg4 m ρ c)).trans rfl)

theorem W5_v43 : W5 m ρ c (Proc.devRef .tc main_v43) = Cert.ReferenceIdeal.Read.val_main_v48 (F := Ideal) (x0 m c) (x1 m c) (x2 m c) (x3 m c) :=
  ((W5_arr m ρ c 0).trans (((dat2 (V4 m ρ) c).arrAt_in 0 rfl _).trans (A_eq2 (V4 m ρ) c 0))).trans (W4_v43 m ρ c)
theorem W5_v12 : W5 m ρ c (Proc.devRef .tc main_v12) = Cert.ReferenceIdeal.Read.val_main_v41 (F := Ideal) (x1 m c) :=
  (W5_of_ne m ρ c main_v12 (by decide)).trans (W4_v12 m ρ c)
theorem W5_v1 : W5 m ρ c (Proc.devRef .tc main_v1) = Cert.ReferenceIdeal.Read.val_main_v1 (F := Ideal) (x1 m c) :=
  (W5_of_ne m ρ c main_v1 (by decide)).trans (W4_v1 m ρ c)
theorem W5_v3 : W5 m ρ c (Proc.devRef .tc main_v3) = Cert.ReferenceIdeal.Read.val_main_v3 (F := Ideal) (x1 m c) :=
  (W5_of_ne m ρ c main_v3 (by decide)).trans (W4_v3 m ρ c)
theorem W5_v28 : W5 m ρ c (Proc.devRef .tc main_v28) = Cert.ReferenceIdeal.Read.val_main_v34 (F := Ideal) (x1 m c) :=
  (W5_of_ne m ρ c main_v28 (by decide)).trans (W4_v28 m ρ c)
theorem W5_arg5 : W5 m ρ c (Proc.devRef .tc main_arg5) = x5 m c :=
  (W5_of_ne m ρ c main_arg5 (by decide)).trans (W4_arg5 m ρ c)
theorem W5_arg6 : W5 m ρ c (Proc.devRef .tc main_arg6) = x6 m c :=
  (W5_of_ne m ρ c main_arg6 (by decide)).trans (W4_arg6 m ρ c)
theorem W5_arg7 : W5 m ρ c (Proc.devRef .tc main_arg7) = x7 m c :=
  (W5_of_ne m ρ c main_arg7 (by decide)).trans (W4_arg7 m ρ c)

set_option maxHeartbeats 4000000 in
/-- The second aggregate. -/
theorem W6_v56 : W6 m ρ c (Proc.devRef .tc main_v56) = Cert.ReferenceIdeal.Read.val_main_v84 (F := Ideal) (x0 m c) (x1 m c) (x2 m c) (x3 m c) (x4 m c) := by
  show StableHlo.after (hostOps3 (F := Ideal)) (W5 m ρ c) (Proc.devRef .tc main_v56) = _
  after_results_simp
  rw [W5_v44 m ρ c, W5_v3 m ρ c, W5_v1 m ρ c, W5_v28 m ρ c]
  rfl

set_option maxHeartbeats 4000000 in
/-- The second bias vector as a row. -/
theorem W6_v57 : W6 m ρ c (Proc.devRef .tc main_v57) = Cert.ReferenceIdeal.Read.val_main_v90 (F := Ideal) (x5 m c) := by
  show StableHlo.after (hostOps3 (F := Ideal)) (W5 m ρ c) (Proc.devRef .tc main_v57) = _
  after_results_simp
  rw [W5_arg5 m ρ c]
  exact Cert.LibColVec.castRow_eq_bcastRow (x5 m c) _ _

theorem W6_v44 : W6 m ρ c (Proc.devRef .tc main_v44) = Cert.ReferenceIdeal.Read.val_main_v49 (F := Ideal) (x0 m c) (x1 m c) (x2 m c) (x3 m c) (x4 m c) :=
  (show W6 m ρ c (Proc.devRef .tc main_v44) = W5 m ρ c (Proc.devRef .tc main_v44) by host_skip hostOps3 main_v44).trans (W5_v44 m ρ c)
theorem W6_v12 : W6 m ρ c (Proc.devRef .tc main_v12) = Cert.ReferenceIdeal.Read.val_main_v41 (F := Ideal) (x1 m c) :=
  (show W6 m ρ c (Proc.devRef .tc main_v12) = W5 m ρ c (Proc.devRef .tc main_v12) by host_skip hostOps3 main_v12).trans (W5_v12 m ρ c)
theorem W6_v43 : W6 m ρ c (Proc.devRef .tc main_v43) = Cert.ReferenceIdeal.Read.val_main_v48 (F := Ideal) (x0 m c) (x1 m c) (x2 m c) (x3 m c) :=
  (show W6 m ρ c (Proc.devRef .tc main_v43) = W5 m ρ c (Proc.devRef .tc main_v43) by host_skip hostOps3 main_v43).trans (W5_v43 m ρ c)
theorem W6_arg6 : W6 m ρ c (Proc.devRef .tc main_arg6) = x6 m c :=
  (show W6 m ρ c (Proc.devRef .tc main_arg6) = W5 m ρ c (Proc.devRef .tc main_arg6) by host_skip hostOps3 main_arg6).trans (W5_arg6 m ρ c)
theorem W6_arg7 : W6 m ρ c (Proc.devRef .tc main_arg7) = x7 m c :=
  (show W6 m ρ c (Proc.devRef .tc main_arg7) = W5 m ρ c (Proc.devRef .tc main_arg7) by host_skip hostOps3 main_arg7).trans (W5_arg7 m ρ c)

end Cert.KernelIdeal.Chain

end
-- ==== Proof.Region3.lean ====
/-
  Region 3: xjk = max(x1, max(agg2 + h2 · dinv² + b2, 0)), one block of 5000 rows per grid point.

  As in the first combine region every operation treats the rows separately, so block t of the result is rows
  5000·t … of the same expression of the whole arrays; the last maximum takes the rows of x1 as its first operand.
-/
import proofs.«133895_j43662637531875_1_alg».proof.Proof.Gen.KernelIdeal.Frame
import proofs.«133895_j43662637531875_1_alg».proof.Proof.Rows
import Idealize.ShloMosaic.Lib.Pipeline.Value

set_option maxRecDepth 16384

noncomputable section

namespace Cert.KernelIdeal.Region3

open Cert.KernelIdeal Cert.KernelIdeal.Gen Cert.LibRowRel Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value, block against whole arrays. -/
theorem pay_rel {ρ : Fin 5000 → Fin 100000} (hbD : (⟨2, ![100000, 1]⟩ : Shape).BroadcastsInDim ⟨2, ![100000, 64]⟩ ![0, 1]) (hbB : (⟨2, ![1, 64]⟩ : Shape).BroadcastsInDim ⟨2, ![100000, 64]⟩ ![0, 1]) (hbZ : (⟨0, ![]⟩ : Shape).BroadcastsInDim ⟨2, ![100000, 64]⟩ ![])
    (x0 x1 : Vec Ideal S5000x64 .f32) (x2 : Vec Ideal S5000x1 .f32) (x3 : Vec Ideal S1x64 .f32) (x4 : Vec Ideal S5000x64 .f32)
    (A H : FVec Ideal ⟨2, ![100000, 64]⟩ .f32) (D : FVec Ideal ⟨2, ![100000, 1]⟩ .f32) (B : FVec Ideal ⟨2, ![1, 64]⟩ .f32) (X1 : FVec Ideal ⟨2, ![100000, 64]⟩ .f32)
    (h0 : Rel ρ (φ := .f32) x0 A) (h1 : Rel ρ (φ := .f32) x1 H) (h2 : Rel ρ (φ := .f32) x2 D) (h3 : ∀ i, (x3 i : EReal) = B i) (h4 : Rel ρ (φ := .f32) x4 X1) :
    Rel ρ (φ := .f32) (k3_pay1 (F := Ideal) x0 x1 x2 x3 x4) (maximumf X1 (maximumf (addf (addf A (mulf H (broadcastInDim ⟨2, ![100000, 64]⟩ ![0, 1] hbD D))) (broadcastInDim ⟨2, ![100000, 64]⟩ ![0, 1] hbB B)) (broadcastInDim ⟨2, ![100000, 64]⟩ ![] hbZ (constant (F := Ideal) ⟨0, ![]⟩ .f32 0x00000000#32)))) := by
  unfold k3_pay1
  exact Rel.maximumf (Rel.castSelf h4 _) (Rel.maximumf (Rel.addf (Rel.addf (Rel.castSelf h0 _) (Rel.mulf (Rel.castSelf h1 _) (Rel.colBcast (Rel.castSelf h2 _) _ hbD))) (Rel.biasRow (castSelf (φ := .f32) h3 _) _ hbB)) (Rel.splat _ hbZ))

/-- Window 0's block index at a grid point: one block of rows further down per point. -/
theorem idx_0 : ∀ t : Fin cfg3.N, win3_0.index t (0 : Fin 2) = t.val ∧ win3_0.index t (1 : Fin 2) = 0 :=
  (by decide +kernel : ∀ t : Fin grid3.N, _)

/-- Window 1's block index at a grid point: one block of rows further down per point. -/
theorem idx_1 : ∀ t : Fin cfg3.N, win3_1.index t (0 : Fin 2) = t.val ∧ win3_1.index t (1 : Fin 2) = 0 :=
  (by decide +kernel : ∀ t : Fin grid3.N, _)

/-- Window 2's block index at a grid point: one block of rows further down per point. -/
theorem idx_2 : ∀ t : Fin cfg3.N, win3_2.index t (0 : Fin 2) = t.val ∧ win3_2.index t (1 : Fin 2) = 0 :=
  (by decide +kernel : ∀ t : Fin grid3.N, _)

/-- Window 3's block index at a grid point: the one block, at every point. -/
theorem idx_3 : ∀ t : Fin cfg3.N, win3_3.index t (0 : Fin 2) = 0 ∧ win3_3.index t (1 : Fin 2) = 0 :=
  (by decide +kernel : ∀ t : Fin grid3.N, _)

/-- Window 4's block index at a grid point: one block of rows further down per point. -/
theorem idx_4 : ∀ t : Fin cfg3.N, win3_4.index t (0 : Fin 2) = t.val ∧ win3_4.index t (1 : Fin 2) = 0 :=
  (by decide +kernel : ∀ t : Fin grid3.N, _)

/-- Window 5's block index at a grid point: one block of rows further down per point. -/
theorem idx_5 : ∀ t : Fin cfg3.N, win3_5.index t (0 : Fin 2) = t.val ∧ win3_5.index t (1 : Fin 2) = 0 :=
  (by decide +kernel : ∀ t : Fin grid3.N, _)

theorem emb_0 (t : Fin cfg3.N) (p : Fin 5000) (j : Fin 64) :
    ((cfg3.win 0).blk t).view.emb (ix2 p j) = ix2 (rowOf N_3 t p) j := by
  obtain ⟨e0, e1⟩ := idx_0 t
  funext a; apply Fin.ext
  match a with
  | ⟨0, _⟩ => show win3_0.index t (0 : Fin 2) * 5000 + 1 * p.val = 5000 * t.val + p.val; omega
  | ⟨1, _⟩ => show win3_0.index t (1 : Fin 2) * 64 + 1 * j.val = j.val; omega

theorem emb_1 (t : Fin cfg3.N) (p : Fin 5000) (j : Fin 64) :
    ((cfg3.win 1).blk t).view.emb (ix2 p j) = ix2 (rowOf N_3 t p) j := by
  obtain ⟨e0, e1⟩ := idx_1 t
  funext a; apply Fin.ext
  match a with
  | ⟨0, _⟩ => show win3_1.index t (0 : Fin 2) * 5000 + 1 * p.val = 5000 * t.val + p.val; omega
  | ⟨1, _⟩ => show win3_1.index t (1 : Fin 2) * 64 + 1 * j.val = j.val; omega

theorem emb_2 (t : Fin cfg3.N) (p : Fin 5000) (j : Fin 1) :
    ((cfg3.win 2).blk t).view.emb (ix2 p j) = ix2 (rowOf N_3 t p) j := by
  obtain ⟨e0, e1⟩ := idx_2 t
  funext a; apply Fin.ext
  match a with
  | ⟨0, _⟩ => show win3_2.index t (0 : Fin 2) * 5000 + 1 * p.val = 5000 * t.val + p.val; omega
  | ⟨1, _⟩ => show win3_2.index t (1 : Fin 2) * 1 + 1 * j.val = j.val; omega

theorem emb_3 (t : Fin cfg3.N) (i : S1x64.Idx) : ((cfg3.win 3).blk t).view.emb i = i := by
  obtain ⟨e0, e1⟩ := idx_3 t
  funext a; apply Fin.ext
  match a with
  | ⟨0, _⟩ => show win3_3.index t (0 : Fin 2) * 1 + 1 * (i 0).val = (i 0).val; omega
  | ⟨1, _⟩ => show win3_3.index t (1 : Fin 2) * 64 + 1 * (i 1).val = (i 1).val; omega

theorem emb_4 (t : Fin cfg3.N) (p : Fin 5000) (j : Fin 64) :
    ((cfg3.win 4).blk t).view.emb (ix2 p j) = ix2 (rowOf N_3 t p) j := by
  obtain ⟨e0, e1⟩ := idx_4 t
  funext a; apply Fin.ext
  match a with
  | ⟨0, _⟩ => show win3_4.index t (0 : Fin 2) * 5000 + 1 * p.val = 5000 * t.val + p.val; omega
  | ⟨1, _⟩ => show win3_4.index t (1 : Fin 2) * 64 + 1 * j.val = j.val; omega

theorem emb_5 (t : Fin cfg3.N) (p : Fin 5000) (j : Fin 64) :
    ((cfg3.win 5).blk t).view.emb (ix2 p j) = ix2 (rowOf N_3 t p) j := by
  obtain ⟨e0, e1⟩ := idx_5 t
  funext a; apply Fin.ext
  match a with
  | ⟨0, _⟩ => show win3_5.index t (0 : Fin 2) * 5000 + 1 * p.val = 5000 * t.val + p.val; omega
  | ⟨1, _⟩ => show win3_5.index t (1 : Fin 2) * 64 + 1 * j.val = j.val; omega

/-- Block t of window 0 is rows 5000·t … 5000·t + 4999 of its array. -/
theorem blk_0 (c : Dev nD) (A : FVec Ideal ⟨2, ![100000, 64]⟩ .f32) (hA : V c main_v56 = A) (t : Fin cfg3.N) :
    Rel (rowOf N_3 t) (φ := .f32) (iblk3 V c 0 t) A := fun p j => by
  subst hA
  show V c main_v56 (((cfg3.win 0).blk t).view.emb (ix2 p j)) = V c main_v56 (ix2 (rowOf N_3 t p) j)
  rw [emb_0]

/-- Block t of window 1 is rows 5000·t … 5000·t + 4999 of its array. -/
theorem blk_1 (c : Dev nD) (H : FVec Ideal ⟨2, ![100000, 64]⟩ .f32) (hH : V c main_v44 = H) (t : Fin cfg3.N) :
    Rel (rowOf N_3 t) (φ := .f32) (iblk3 V c 1 t) H := fun p j => by
  subst hH
  show V c main_v44 (((cfg3.win 1).blk t).view.emb (ix2 p j)) = V c main_v44 (ix2 (rowOf N_3 t p) j)
  rw [emb_1]

/-- Block t of window 2 is rows 5000·t … 5000·t + 4999 of its array. -/
theorem blk_2 (c : Dev nD) (D : FVec Ideal ⟨2, ![100000, 1]⟩ .f32) (hD : V c main_v12 = D) (t : Fin cfg3.N) :
    Rel (rowOf N_3 t) (φ := .f32) (iblk3 V c 2 t) D := fun p j => by
  subst hD
  show V c main_v12 (((cfg3.win 2).blk t).view.emb (ix2 p j)) = V c main_v12 (ix2 (rowOf N_3 t p) j)
  rw [emb_2]

/-- Window 3's one block is its whole array. -/
theorem blk_3 (c : Dev nD) (B : FVec Ideal ⟨2, ![1, 64]⟩ .f32) (hB : V c main_v57 = B) (t : Fin cfg3.N) (i : S1x64.Idx) :
    (iblk3 V c 3 t i : EReal) = B i := by
  subst hB
  show V c main_v57 (((cfg3.win 3).blk t).view.emb i) = V c main_v57 i
  rw [emb_3]

/-- Block t of window 4 is rows 5000·t … 5000·t + 4999 of its array. -/
theorem blk_4 (c : Dev nD) (X1 : FVec Ideal ⟨2, ![100000, 64]⟩ .f32) (hX1 : V c main_v43 = X1) (t : Fin cfg3.N) :
    Rel (rowOf N_3 t) (φ := .f32) (iblk3 V c 4 t) X1 := fun p j => by
  subst hX1
  show V c main_v43 (((cfg3.win 4).blk t).view.emb (ix2 p j)) = V c main_v43 (ix2 (rowOf N_3 t p) j)
  rw [emb_4]

/-- What point t writes back is block t of the whole-array result. -/
theorem flushed_eq (c : Dev nD) (hbD : (⟨2, ![100000, 1]⟩ : Shape).BroadcastsInDim ⟨2, ![100000, 64]⟩ ![0, 1]) (hbB : (⟨2, ![1, 64]⟩ : Shape).BroadcastsInDim ⟨2, ![100000, 64]⟩ ![0, 1]) (hbZ : (⟨0, ![]⟩ : Shape).BroadcastsInDim ⟨2, ![100000, 64]⟩ ![]) (A : FVec Ideal ⟨2, ![100000, 64]⟩ .f32) (H : FVec Ideal ⟨2, ![100000, 64]⟩ .f32) (D : FVec Ideal ⟨2, ![100000, 1]⟩ .f32) (B : FVec Ideal ⟨2, ![1, 64]⟩ .f32) (X1 : FVec Ideal ⟨2, ![100000, 64]⟩ .f32) (hA : V c main_v56 = A) (hH : V c main_v44 = H) (hD : V c main_v12 = D) (hB : V c main_v57 = B) (hX1 : V c main_v43 = X1) (t : Fin cfg3.N) :
    (dat3 V c).flushed 5 t = ((cfg3.win 5).blk t).view.read (Elt Ideal) (maximumf X1 (maximumf (addf (addf A (mulf H (broadcastInDim ⟨2, ![100000, 64]⟩ ![0, 1] hbD D))) (broadcastInDim ⟨2, ![100000, 64]⟩ ![0, 1] hbB B)) (broadcastInDim ⟨2, ![100000, 64]⟩ ![] hbZ (constant (F := Ideal) ⟨0, ![]⟩ .f32 0x00000000#32)))) := by
  show (cfg3.win 5).cut (grid3.coords t) ((dat3 V c).after 5 t) = _
  rw [after3_5]
  unfold out3_5
  rw [View.canon_unit_zero hz]
  simp only [View.ld_unit_zero (S := S5000x64) hz, View.ld_unit_zero (S := S5000x1) hz, View.ld_unit_zero (S := S1x64) hz]
  funext y
  obtain ⟨p, q, rfl⟩ : ∃ (p : Fin 5000) (q : Fin 64), y = ix2 p q := ⟨y 0, y 1, eq_ix2 y⟩
  show k3_pay1 (F := Ideal) (iblk3 V c 0 t) (iblk3 V c 1 t) (iblk3 V c 2 t) (iblk3 V c 3 t) (iblk3 V c 4 t) (ix2 p q)
    = (maximumf X1 (maximumf (addf (addf A (mulf H (broadcastInDim ⟨2, ![100000, 64]⟩ ![0, 1] hbD D))) (broadcastInDim ⟨2, ![100000, 64]⟩ ![0, 1] hbB B)) (broadcastInDim ⟨2, ![100000, 64]⟩ ![] hbZ (constant (F := Ideal) ⟨0, ![]⟩ .f32 0x00000000#32)))) (((cfg3.win 5).blk t).view.emb (ix2 p q))
  rw [emb_5]
  exact pay_rel hbD hbB hbZ _ _ _ _ _ A H D B X1 (blk_0 V c A hA t) (blk_1 V c H hH t) (blk_2 V c D hD t) (blk_3 V c B hB t) (blk_4 V c X1 hX1 t) p q

theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v58).slice (win3_5.rect t)).set ↔ _
  rw [View.set_slice_whole, Rect.mem_set_unit]
  exact Iff.rfl

/-- Every entry of the result lies in the block of the point numbered by its row's quotient by 5000. -/
theorem cover (i : S100000x64.Idx) : ∃ t : Fin cfg3.N, (cfg3.win 5).flush t = true ∧ i ∈ ((cfg3.win 5).blk t).view.set := by
  obtain ⟨hq, hlo, hhi⟩ := row_in_block (i 0)
  have hN : cfg3.N = 20 := N_3
  let t : Fin cfg3.N := ⟨(i 0).val / 5000, by omega⟩
  obtain ⟨e0, e1⟩ := idx_5 t
  have ht : t.val = (i 0).val / 5000 := rfl
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ =>
    have : (i 1).val < 64 := (i 1).isLt
    show win3_5.index t (1 : Fin 2) * 64 ≤ (i 1).val ∧ (i 1).val < win3_5.index t (1 : Fin 2) * 64 + 64; omega

/-- The result array after the region, as one function of the arrays the region finds. -/
theorem value (c : Dev nD) (hbD : (⟨2, ![100000, 1]⟩ : Shape).BroadcastsInDim ⟨2, ![100000, 64]⟩ ![0, 1]) (hbB : (⟨2, ![1, 64]⟩ : Shape).BroadcastsInDim ⟨2, ![100000, 64]⟩ ![0, 1]) (hbZ : (⟨0, ![]⟩ : Shape).BroadcastsInDim ⟨2, ![100000, 64]⟩ ![]) (A : FVec Ideal ⟨2, ![100000, 64]⟩ .f32) (H : FVec Ideal ⟨2, ![100000, 64]⟩ .f32) (D : FVec Ideal ⟨2, ![100000, 1]⟩ .f32) (B : FVec Ideal ⟨2, ![1, 64]⟩ .f32) (X1 : FVec Ideal ⟨2, ![100000, 64]⟩ .f32) (hA : V c main_v56 = A) (hH : V c main_v44 = H) (hD : V c main_v12 = D) (hB : V c main_v57 = B) (hX1 : V c main_v43 = X1) :
    (dat3 V c).arrAt 5 cfg3.N = (maximumf X1 (maximumf (addf (addf A (mulf H (broadcastInDim ⟨2, ![100000, 64]⟩ ![0, 1] hbD D))) (broadcastInDim ⟨2, ![100000, 64]⟩ ![0, 1] hbB B)) (broadcastInDim ⟨2, ![100000, 64]⟩ ![] hbZ (constant (F := Ideal) ⟨0, ![]⟩ .f32 0x00000000#32)))) :=
  (dat3 V c).arrAt_eq_of_cover 5 _ (fun t _ => flushed_eq V c hbD hbB hbZ A H D B X1 hA hH hD hB hX1 t) cover

end Cert.KernelIdeal.Region3

end
-- ==== Proof.Region4.lean ====
/-
  Region 4: out = xjk · Wf + bf, one block of 5000 rows per grid point.

  At grid point t the body loads rows 5000·t … of xjk, all of Wf and the one bias row, and stores the product plus
  the bias row repeated along the rows into the same rows of the result.  Block t of the result is rows 5000·t … of
  the whole product plus the bias row broadcast over all 100000 rows.
-/
import proofs.«133895_j43662637531875_1_alg».proof.Proof.Gen.KernelIdeal.Frame
import proofs.«133895_j43662637531875_1_alg».proof.Proof.Rows
import Idealize.ShloMosaic.Lib.Pipeline.Value

set_option maxRecDepth 16384

noncomputable section

namespace Cert.KernelIdeal.Region4

open Cert.KernelIdeal Cert.KernelIdeal.Gen Cert.LibRowRel Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The kernel's matmul contracts the second axis of the block with the first axis of the weights, nothing batched. -/
theorem plainK : Plain dot_S5000x64_S64x40_S5000x40_1_0_0_1_n_n where
  rank := rfl
  size := rfl
  l0 := fun j c => by
    unfold DotDims.lhsIdx
    rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
    rfl
  l1 := fun j c => dot_S5000x64_S64x40_S5000x40_1_0_0_1_n_n.lhsIdx_val_of_single rfl j c
  r0 := fun j c => dot_S5000x64_S64x40_S5000x40_1_0_0_1_n_n.rhsIdx_val_of_single rfl j c
  r1 := fun j c => by
    unfold DotDims.rhsIdx
    rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
    rfl

/-- The body's stored value, block against whole arrays. -/
theorem pay_rel {ρ : Fin 5000 → Fin 100000} {D' : DotDims ⟨2, ![100000, 64]⟩ ⟨2, ![64, 40]⟩ ⟨2, ![100000, 40]⟩} (hD' : Plain D')
    (hbB : (⟨2, ![1, 40]⟩ : Shape).BroadcastsInDim ⟨2, ![100000, 40]⟩ ![0, 1])
    (x0 : Vec Ideal S5000x64 .f32) (x1 : Vec Ideal S64x40 .f32) (x2 : Vec Ideal S1x40 .f32)
    (X : FVec Ideal ⟨2, ![100000, 64]⟩ .f32) (Wt : FVec Ideal ⟨2, ![64, 40]⟩ .f32) (B : FVec Ideal ⟨2, ![1, 40]⟩ .f32)
    (h0 : Rel ρ (φ := .f32) x0 X) (h1 : ∀ i, (x1 i : EReal) = Wt i) (h2 : ∀ i, (x2 i : EReal) = B i) :
    Rel ρ (φ := .f32) (k4_pay1 (F := Ideal) x0 x1 x2)
      (addf (Host.dotGeneral (F := Ideal) D' none X Wt) (broadcastInDim ⟨2, ![100000, 40]⟩ ![0, 1] hbB B)) := by
  unfold k4_pay1
  exact Rel.addf (Rel.matmul plainK hD' (Rel.truncf_left _ (Rel.castSelf h0 _)) h1 none none) (Rel.biasRow (castSelf (φ := .f32) h2 _) _ hbB)

/-- Window 0's block index at a grid point: one block of rows further down per point. -/
theorem idx_0 : ∀ t : Fin cfg4.N, win4_0.index t (0 : Fin 2) = t.val ∧ win4_0.index t (1 : Fin 2) = 0 :=
  (by decide +kernel : ∀ t : Fin grid4.N, _)

/-- Window 1's block index at a grid point: the one block, at every point. -/
theorem idx_1 : ∀ t : Fin cfg4.N, win4_1.index t (0 : Fin 2) = 0 ∧ win4_1.index t (1 : Fin 2) = 0 :=
  (by decide +kernel : ∀ t : Fin grid4.N, _)

/-- Window 2's block index at a grid point: the one block, at every point. -/
theorem idx_2 : ∀ t : Fin cfg4.N, win4_2.index t (0 : Fin 2) = 0 ∧ win4_2.index t (1 : Fin 2) = 0 :=
  (by decide +kernel : ∀ t : Fin grid4.N, _)

/-- Window 3's block index at a grid point: one block of rows further down per point. -/
theorem idx_3 : ∀ t : Fin cfg4.N, win4_3.index t (0 : Fin 2) = t.val ∧ win4_3.index t (1 : Fin 2) = 0 :=
  (by decide +kernel : ∀ t : Fin grid4.N, _)

theorem emb_0 (t : Fin cfg4.N) (p : Fin 5000) (j : Fin 64) :
    ((cfg4.win 0).blk t).view.emb (ix2 p j) = ix2 (rowOf N_4 t p) j := by
  obtain ⟨e0, e1⟩ := idx_0 t
  funext a; apply Fin.ext
  match a with
  | ⟨0, _⟩ => show win4_0.index t (0 : Fin 2) * 5000 + 1 * p.val = 5000 * t.val + p.val; omega
  | ⟨1, _⟩ => show win4_0.index t (1 : Fin 2) * 64 + 1 * j.val = j.val; omega

theorem emb_1 (t : Fin cfg4.N) (i : S64x40.Idx) : ((cfg4.win 1).blk t).view.emb i = i := by
  obtain ⟨e0, e1⟩ := idx_1 t
  funext a; apply Fin.ext
  match a with
  | ⟨0, _⟩ => show win4_1.index t (0 : Fin 2) * 64 + 1 * (i 0).val = (i 0).val; omega
  | ⟨1, _⟩ => show win4_1.index t (1 : Fin 2) * 40 + 1 * (i 1).val = (i 1).val; omega

theorem emb_2 (t : Fin cfg4.N) (i : S1x40.Idx) : ((cfg4.win 2).blk t).view.emb i = i := by
  obtain ⟨e0, e1⟩ := idx_2 t
  funext a; apply Fin.ext
  match a with
  | ⟨0, _⟩ => show win4_2.index t (0 : Fin 2) * 1 + 1 * (i 0).val = (i 0).val; omega
  | ⟨1, _⟩ => show win4_2.index t (1 : Fin 2) * 40 + 1 * (i 1).val = (i 1).val; omega

theorem emb_3 (t : Fin cfg4.N) (p : Fin 5000) (j : Fin 40) :
    ((cfg4.win 3).blk t).view.emb (ix2 p j) = ix2 (rowOf N_4 t p) j := by
  obtain ⟨e0, e1⟩ := idx_3 t
  funext a; apply Fin.ext
  match a with
  | ⟨0, _⟩ => show win4_3.index t (0 : Fin 2) * 5000 + 1 * p.val = 5000 * t.val + p.val; omega
  | ⟨1, _⟩ => show win4_3.index t (1 : Fin 2) * 40 + 1 * j.val = j.val; omega

/-- Block t of window 0 is rows 5000·t … 5000·t + 4999 of its array. -/
theorem blk_0 (c : Dev nD) (X : FVec Ideal ⟨2, ![100000, 64]⟩ .f32) (hX : V c main_v58 = X) (t : Fin cfg4.N) :
    Rel (rowOf N_4 t) (φ := .f32) (iblk4 V c 0 t) X := fun p j => by
  subst hX
  show V c main_v58 (((cfg4.win 0).blk t).view.emb (ix2 p j)) = V c main_v58 (ix2 (rowOf N_4 t p) j)
  rw [emb_0]

/-- Window 1's one block is its whole array. -/
theorem blk_1 (c : Dev nD) (Wt : FVec Ideal ⟨2, ![64, 40]⟩ .f32) (hWt : V c main_arg6 = Wt) (t : Fin cfg4.N) (i : S64x40.Idx) :
    (iblk4 V c 1 t i : EReal) = Wt i := by
  subst hWt
  show V c main_arg6 (((cfg4.win 1).blk t).view.emb i) = V c main_arg6 i
  rw [emb_1]

/-- Window 2's one block is its whole array. -/
theorem blk_2 (c : Dev nD) (B : FVec Ideal ⟨2, ![1, 40]⟩ .f32) (hB : V c main_v59 = B) (t : Fin cfg4.N) (i : S1x40.Idx) :
    (iblk4 V c 2 t i : EReal) = B i := by
  subst hB
  show V c main_v59 (((cfg4.win 2).blk t).view.emb i) = V c main_v59 i
  rw [emb_2]

/-- What point t writes back is block t of the whole-array result. -/
theorem flushed_eq (c : Dev nD) {D' : DotDims ⟨2, ![100000, 64]⟩ ⟨2, ![64, 40]⟩ ⟨2, ![100000, 40]⟩} (hD' : Plain D') (hbB : (⟨2, ![1, 40]⟩ : Shape).BroadcastsInDim ⟨2, ![100000, 40]⟩ ![0, 1]) (X : FVec Ideal ⟨2, ![100000, 64]⟩ .f32) (Wt : FVec Ideal ⟨2, ![64, 40]⟩ .f32) (B : FVec Ideal ⟨2, ![1, 40]⟩ .f32) (hX : V c main_v58 = X) (hWt : V c main_arg6 = Wt) (hB : V c main_v59 = B) (t : Fin cfg4.N) :
    (dat4 V c).flushed 3 t = ((cfg4.win 3).blk t).view.read (Elt Ideal) (addf (Host.dotGeneral (F := Ideal) D' none X Wt) (broadcastInDim ⟨2, ![100000, 40]⟩ ![0, 1] hbB B)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x40) hz, View.ld_unit_zero (S := S1x40) hz]
  funext y
  obtain ⟨p, q, rfl⟩ : ∃ (p : Fin 5000) (q : Fin 40), y = ix2 p q := ⟨y 0, y 1, eq_ix2 y⟩
  show k4_pay1 (F := Ideal) (iblk4 V c 0 t) (iblk4 V c 1 t) (iblk4 V c 2 t) (ix2 p q)
    = (addf (Host.dotGeneral (F := Ideal) D' none X Wt) (broadcastInDim ⟨2, ![100000, 40]⟩ ![0, 1] hbB B)) (((cfg4.win 3).blk t).view.emb (ix2 p q))
  rw [emb_3]
  exact pay_rel hD' hbB _ _ _ X Wt B (blk_0 V c X hX t) (blk_1 V c Wt hWt t) (blk_2 V c B hB t) p q

theorem mem_blk (t : Fin cfg4.N) (i : S100000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v60).slice (win4_3.rect t)).set ↔ _
  rw [View.set_slice_whole, Rect.mem_set_unit]
  exact Iff.rfl

/-- Every entry of the result lies in the block of the point numbered by its row's quotient by 5000. -/
theorem cover (i : S100000x40.Idx) : ∃ t : Fin cfg4.N, (cfg4.win 3).flush t = true ∧ i ∈ ((cfg4.win 3).blk t).view.set := by
  obtain ⟨hq, hlo, hhi⟩ := row_in_block (i 0)
  have hN : cfg4.N = 20 := N_4
  let t : Fin cfg4.N := ⟨(i 0).val / 5000, by omega⟩
  obtain ⟨e0, e1⟩ := idx_3 t
  have ht : t.val = (i 0).val / 5000 := rfl
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ =>
    have : (i 1).val < 40 := (i 1).isLt
    show win4_3.index t (1 : Fin 2) * 40 ≤ (i 1).val ∧ (i 1).val < win4_3.index t (1 : Fin 2) * 40 + 40; omega

/-- The result array after the region, as one function of the arrays the region finds. -/
theorem value (c : Dev nD) {D' : DotDims ⟨2, ![100000, 64]⟩ ⟨2, ![64, 40]⟩ ⟨2, ![100000, 40]⟩} (hD' : Plain D') (hbB : (⟨2, ![1, 40]⟩ : Shape).BroadcastsInDim ⟨2, ![100000, 40]⟩ ![0, 1]) (X : FVec Ideal ⟨2, ![100000, 64]⟩ .f32) (Wt : FVec Ideal ⟨2, ![64, 40]⟩ .f32) (B : FVec Ideal ⟨2, ![1, 40]⟩ .f32) (hX : V c main_v58 = X) (hWt : V c main_arg6 = Wt) (hB : V c main_v59 = B) :
    (dat4 V c).arrAt 3 cfg4.N = (addf (Host.dotGeneral (F := Ideal) D' none X Wt) (broadcastInDim ⟨2, ![100000, 40]⟩ ![0, 1] hbB B)) :=
  (dat4 V c).arrAt_eq_of_cover 3 _ (fun t _ => flushed_eq V c hD' hbB X Wt B hX hWt hB t) cover

end Cert.KernelIdeal.Region4

end
-- ==== Proof.ChainD.lean ====
/-
  The kernel program's buffers after the last two regions: the result.

  The second combine region leaves xjk = max(x1, max(agg2 + h2 · dinv² + b2, 0)), the reference's jumping-knowledge
  maximum (the reference's second copy of dinv² is the same array as the first).  The last region leaves
  xjk · Wf + bf, the reference's result.
-/
import proofs.«133895_j43662637531875_1_alg».proof.Proof.ChainC
import proofs.«133895_j43662637531875_1_alg».proof.Proof.Region3
import proofs.«133895_j43662637531875_1_alg».proof.Proof.Region4
import Idealize.ShloMosaic.Lib.StableHlo.Run

set_option maxRecDepth 16384

noncomputable section

namespace Cert.KernelIdeal.Chain

open Cert.KernelIdeal Cert.KernelIdeal.Gen Cert.LibRowRel
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- xjk, the maximum of the two layers. -/
theorem W7_v58 : W7 m ρ c (Proc.devRef .tc main_v58) = Cert.ReferenceIdeal.Read.val_main_v94 (F := Ideal) (x0 m c) (x1 m c) (x2 m c) (x3 m c) (x4 m c) (x5 m c) :=
  (W7_arr m ρ c 5).trans ((Cert.KernelIdeal.Region3.value (V6 m ρ) c Cert.ReferenceIdeal.Gen.bcast_S100000x1_S100000x64_0_1 Cert.ReferenceIdeal.Gen.bcast_S1x64_S100000x64_0_1 Cert.ReferenceIdeal.Gen.bcast_S_S100000x64
    (Cert.ReferenceIdeal.Read.val_main_v84 (F := Ideal) (x0 m c) (x1 m c) (x2 m c) (x3 m c) (x4 m c)) (Cert.ReferenceIdeal.Read.val_main_v49 (F := Ideal) (x0 m c) (x1 m c) (x2 m c) (x3 m c) (x4 m c)) (Cert.ReferenceIdeal.Read.val_main_v41 (F := Ideal) (x1 m c)) (Cert.ReferenceIdeal.Read.val_main_v90 (F := Ideal) (x5 m c)) (Cert.ReferenceIdeal.Read.val_main_v48 (F := Ideal) (x0 m c) (x1 m c) (x2 m c) (x3 m c))
    (W6_v56 m ρ c) (W6_v44 m ρ c) (W6_v12 m ρ c) (W6_v57 m ρ c) (W6_v43 m ρ c)).trans rfl)

theorem W7_arg6 : W7 m ρ c (Proc.devRef .tc main_arg6) = x6 m c :=
  (W7_of_ne m ρ c main_arg6 (by decide)).trans (W6_arg6 m ρ c)
theorem W7_arg7 : W7 m ρ c (Proc.devRef .tc main_arg7) = x7 m c :=
  (W7_of_ne m ρ c main_arg7 (by decide)).trans (W6_arg7 m ρ c)

/-- The last bias vector as a row. -/
theorem W8_v59 : W8 m ρ c (Proc.devRef .tc main_v59) = Cert.ReferenceIdeal.Read.val_main_v96 (F := Ideal) (x7 m c) := by
  show StableHlo.after (hostOps4 (F := Ideal)) (W7 m ρ c) (Proc.devRef .tc main_v59) = _
  after_results_simp
  rw [W7_arg7 m ρ c]
  exact Cert.LibColVec.castRow_eq_bcastRow (x7 m c) _ _

theorem W8_v58 : W8 m ρ c (Proc.devRef .tc main_v58) = Cert.ReferenceIdeal.Read.val_main_v94 (F := Ideal) (x0 m c) (x1 m c) (x2 m c) (x3 m c) (x4 m c) (x5 m c) :=
  (show W8 m ρ c (Proc.devRef .tc main_v58) = W7 m ρ c (Proc.devRef .tc main_v58) by host_skip hostOps4 main_v58).trans (W7_v58 m ρ c)
theorem W8_arg6 : W8 m ρ c (Proc.devRef .tc main_arg6) = x6 m c :=
  (show W8 m ρ c (Proc.devRef .tc main_arg6) = W7 m ρ c (Proc.devRef .tc main_arg6) by host_skip hostOps4 main_arg6).trans (W7_arg6 m ρ c)

/-- The reference's last product contracts the second axis of xjk with the first of Wf. -/
theorem plain95 : Plain Cert.ReferenceIdeal.dot_S100000x64_S64x40_S100000x40_1_0_0_1_n_n :=
  ⟨rfl, rfl, Cert.ReferenceIdeal.Read.lhs_main_v95_0, Cert.ReferenceIdeal.Read.lhs_main_v95_1, Cert.ReferenceIdeal.Read.rhs_main_v95_0, Cert.ReferenceIdeal.Read.rhs_main_v95_1⟩

/-- THE RESULT: the kernel program's result buffer ends at the reference's result stage of the same arguments. -/
theorem result : W9 m ρ c (Proc.devRef .tc main_v60) = Cert.ReferenceIdeal.Read.val_main_v98 (F := Ideal) (x0 m c) (x1 m c) (x2 m c) (x3 m c) (x4 m c) (x5 m c) (x6 m c) (x7 m c) :=
  (W9_arr m ρ c 3).trans ((Cert.KernelIdeal.Region4.value (V8 m ρ) c plain95 Cert.ReferenceIdeal.Gen.bcast_S1x40_S100000x40_0_1
    (Cert.ReferenceIdeal.Read.val_main_v94 (F := Ideal) (x0 m c) (x1 m c) (x2 m c) (x3 m c) (x4 m c) (x5 m c)) (x6 m c) (Cert.ReferenceIdeal.Read.val_main_v96 (F := Ideal) (x7 m c))
    (W8_v58 m ρ c) (W8_arg6 m ρ c) (W8_v59 m ρ c)).trans rfl)

end Cert.KernelIdeal.Chain

end
-- ==== Proof.lean ====
/-
  A two-layer graph convolution with a jumping-knowledge maximum and a final linear layer, on 100000 nodes and
  1600000 edges: five kernel regions among host operations against a plain host program.

  Both programs compute, on the extended reals,

    dinv = rsqrt(deg + 1),  w_e = dinv[src_e] · dinv[dst_e],
    x1  = max((Σ_{e → i} w_e · (x W1)[src_e] + (x W1)[i] · dinv[i]²) + b1, 0),
    x2  = max((Σ_{e → i} w_e · (x1 W2)[src_e] + (x1 W2)[i] · dinv[i]²) + b2, 0),
    out = max(x1, x2) · Wf + bf,

  with every sum, product and maximum in the same order and grouping.  The differences are of layout only: the kernel
  program computes the three matrix products and the two pointwise combinations in regions that walk the nodes in 20
  blocks of 5000 rows (each block of a result is the same rows of the whole-array expression, and the blocks cover the
  array); it rounds the matmul operands to bf16, which is the identity on extended reals; it writes a vector as a column
  or a row with a reshape where the reference uses a broadcast; and it computes degree and edge weights once where the
  reference computes them once per layer from the same edge list.  The gathers and scatter-adds are the same host
  operations on the same operands in both programs, so nothing about the edge indices is needed, and no finiteness of
  the inputs either: no step uses a law that fails at an infinity.

  The three frames: the two kernel programs' are the generated frame certificates, the reference's is its generated run
  with the result dropped.  The idealization rewrote nothing, so the preserves conjunct is trivial.
-/
import proofs.«133895_j43662637531875_1_alg».proof.Defs
import proofs.«133895_j43662637531875_1_alg».proof.Proof.Gen.Kernel
import proofs.«133895_j43662637531875_1_alg».proof.Proof.Gen.Kernel.Skeleton
import proofs.«133895_j43662637531875_1_alg».proof.Proof.Gen.Kernel.Launch
import proofs.«133895_j43662637531875_1_alg».proof.Proof.Gen.Kernel.Points
import proofs.«133895_j43662637531875_1_alg».proof.Proof.Gen.Kernel.Frame
import proofs.«133895_j43662637531875_1_alg».proof.Proof.Gen.KernelIdeal
import proofs.«133895_j43662637531875_1_alg».proof.Proof.Gen.KernelIdeal.Skeleton
import proofs.«133895_j43662637531875_1_alg».proof.Proof.Gen.KernelIdeal.Launch
import proofs.«133895_j43662637531875_1_alg».proof.Proof.Gen.KernelIdeal.Points
import proofs.«133895_j43662637531875_1_alg».proof.Proof.Gen.KernelIdeal.Frame
import proofs.«133895_j43662637531875_1_alg».proof.Proof.Gen.ReferenceIdeal
import proofs.«133895_j43662637531875_1_alg».proof.Proof.Gen.ReferenceIdeal.Run
import proofs.«133895_j43662637531875_1_alg».proof.Proof.Gen.ReferenceIdeal.Read
import proofs.«133895_j43662637531875_1_alg».proof.Proof.Gen.Pre_finite_inputs
import proofs.«133895_j43662637531875_1_alg».proof.Proof.KRun
import proofs.«133895_j43662637531875_1_alg».proof.Proof.ChainD
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program ends with its result buffer at the last boundary's contents, which is the reference's result
    stage of the kernel program's arguments; the reference ends at the same stage of its own arguments, which agree. -/
theorem algebraic : Cert.algebraic_KernelIdeal_ReferenceIdeal := by
  intro m ρ m' ρ' _ hagree
  refine ⟨fun c => Cert.KernelIdeal.Gen.W9 m ρ c (Proc.devRef .tc Cert.KernelIdeal.main_v60), Cert.KernelIdeal.KRun.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v98_eq, e0, e1, e2, e3, e4, e5, e6, e7]
  exact (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
